-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_arg8 : FVec F S128x16 .f32) (main_arg9 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S128x16 .f32 := Host.absf main_arg8
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x16 .f32) (main_arg7 : FVec F S16 .f32) (main_arg8 : FVec F S128x16 .f32) (main_arg9 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x16 .f32) (main_arg7 : FVec F S16 .f32) (main_arg8 : FVec F S128x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2000x128 : Shape := ⟨2, ![2000, 128]⟩
abbrev S1x128 : Shape := ⟨2, ![1, 128]⟩
abbrev S200x10000 : Shape := ⟨2, ![200, 10000]⟩
abbrev S200x128 : Shape := ⟨2, ![200, 128]⟩
abbrev S1x128x16 : Shape := ⟨3, ![1, 128, 16]⟩
abbrev S2x128x16 : Shape := ⟨3, ![2, 128, 16]⟩
abbrev S1x16 : Shape := ⟨2, ![1, 16]⟩
abbrev S2x16 : Shape := ⟨2, ![2, 16]⟩
abbrev S2x1x16 : Shape := ⟨3, ![2, 1, 16]⟩
abbrev S10000x16 : Shape := ⟨2, ![10000, 16]⟩
abbrev S1x1x16 : Shape := ⟨3, ![1, 1, 16]⟩
abbrev S200x16 : Shape := ⟨2, ![200, 16]⟩
abbrev S5000x16 : Shape := ⟨2, ![5000, 16]⟩

abbrev nBuf : Space → Nat
  | .hbm => 25
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S128x16, .f32⟩
  | .hbm, ⟨9, _⟩ => ⟨S16, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S1x128x16, .f32⟩
  | .hbm, ⟨14, _⟩ => ⟨S1x128x16, .f32⟩
  | .hbm, ⟨15, _⟩ => ⟨S2x128x16, .f32⟩
  | .hbm, ⟨16, _⟩ => ⟨S1x16, .f32⟩
  | .hbm, ⟨17, _⟩ => ⟨S1x16, .f32⟩
  | .hbm, ⟨18, _⟩ => ⟨S2x16, .f32⟩
  | .hbm, ⟨19, _⟩ => ⟨S2x1x16, .f32⟩
  | .hbm, ⟨20, _⟩ => ⟨S1x128, .f32⟩
  | .hbm, ⟨21, _⟩ => ⟨S10000x128, .f32⟩
  | .hbm, ⟨22, _⟩ => ⟨S10000x16, .f32⟩
  | .hbm, ⟨23, _⟩ => ⟨S5000x16, .f32⟩
  | .hbm, ⟨24, _⟩ => ⟨S5000x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S200x10000, .f32⟩
  | .local _ .vmem, ⟨6, _⟩ => ⟨S200x10000, .f32⟩
  | .local _ .vmem, ⟨7, _⟩ => ⟨S10000x128, .f32⟩
  | .local _ .vmem, ⟨8, _⟩ => ⟨S1x128, .f32⟩
  | .local _ .vmem, ⟨9, _⟩ => ⟨S128x128, .f32⟩
  | .local _ .vmem, ⟨10, _⟩ => ⟨S200x128, .f32⟩
  | .local _ .vmem, ⟨11, _⟩ => ⟨S200x128, .f32⟩
  | .local _ .vmem, ⟨12, _⟩ => ⟨S200x10000, .f32⟩
  | .local _ .vmem, ⟨13, _⟩ => ⟨S200x10000, .f32⟩
  | .local _ .vmem, ⟨14, _⟩ => ⟨S10000x128, .f32⟩
  | .local _ .vmem, ⟨15, _⟩ => ⟨S1x128, .f32⟩
  | .local _ .vmem, ⟨16, _⟩ => ⟨S1x128x16, .f32⟩
  | .local _ .vmem, ⟨17, _⟩ => ⟨S1x128x16, .f32⟩
  | .local _ .vmem, ⟨18, _⟩ => ⟨S1x1x16, .f32⟩
  | .local _ .vmem, ⟨19, _⟩ => ⟨S1x1x16, .f32⟩
  | .local _ .vmem, ⟨20, _⟩ => ⟨S200x128, .f32⟩
  | .local _ .vmem, ⟨21, _⟩ => ⟨S200x128, .f32⟩
  | .local _ .vmem, ⟨22, _⟩ => ⟨S200x16, .f32⟩
  | .local _ .vmem, ⟨23, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_4 (i : grid2.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x128x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S200x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S200x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  bcast_S128x16_S1x128x16_1_2 : S128x16.BroadcastsInDim S1x128x16 (![1, 2] : Fin 2 → Fin S1x128x16.rank)
  concatenates_S1x128x16_S1x128x16_S2x128x16_d0 : Shape.Concatenates [S1x128x16, S1x128x16] S2x128x16 0
  bcast_S16_S1x16_1 : S16.BroadcastsInDim S1x16 (![1] : Fin 1 → Fin S1x16.rank)
  concatenates_S1x16_S1x16_S2x16_d0 : Shape.Concatenates [S1x16, S1x16] S2x16 0
  shapeCasts_S2x16_S2x1x16 : S2x16.ShapeCasts S2x1x16
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  slices_S10000x16_S5000x16_0_0 : S10000x16.Slices ![0, 0] S5000x16
  slices_S10000x16_S5000x16_5000_0 : S10000x16.Slices ![5000, 0] S5000x16
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S200x128_S128x16_S200x16_1_0_0_1_n_n_wf : DotDims.WF S200x128 S128x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x16.size a ≤ S2x128x16.size a
  hwx2_3 : ∀ i : grid2.Coords, EltTy.bits .f32 = 32 ∨ (Rect.block (s := S2x128x16) S1x128x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x16.size a ≤ S2x1x16.size a
  hwx2_4 : ∀ i : grid2.Coords, EltTy.bits .f32 = 32 ∨ (Rect.block (s := S2x1x16) S1x1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S200x128.size a ≤ S10000x128.size a
  hwx2_5 : ∀ i : grid2.Coords, EltTy.bits .f32 = 32 ∨ (Rect.block (s := S10000x128) S200x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S200x16.size a ≤ S10000x16.size a
  hwx2_6 : ∀ i : grid2.Coords, EltTy.bits .f32 = 32 ∨ (Rect.block (s := S10000x16) S200x16.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x16_S200x16_1_0_0_1_n_n : DotDims S200x128 S128x16 S200x16 where
  lhsContracting := [1]
  rhsContracting := [0]
  lhsNonContracting := [0]
  rhsNonContracting := [1]
  lhsBatch := []
  rhsBatch := []
  wf := dot_S200x128_S128x16_S200x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x128x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1x16.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11_0) S200x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v11_1) S200x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S5000x128 : Shape := ⟨2, ![5000, 128]⟩
abbrev S5000x16 : Shape := ⟨2, ![5000, 16]⟩
abbrev S1x16 : Shape := ⟨2, ![1, 16]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S128x16, .f32⟩
  | .hbm, ⟨9, _⟩ => ⟨S16, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S5000x128, .f32⟩
  | .hbm, ⟨24, _⟩ => ⟨S5000x16, .f32⟩
  | .hbm, ⟨25, _⟩ => ⟨S1x16, .f32⟩
  | .hbm, ⟨26, _⟩ => ⟨S5000x16, .f32⟩
  | .hbm, ⟨27, _⟩ => ⟨S5000x16, .f32⟩
  | .hbm, ⟨28, _⟩ => ⟨S5000x128, .f32⟩
  | .hbm, ⟨29, _⟩ => ⟨S5000x16, .f32⟩
  | .hbm, ⟨30, _⟩ => ⟨S1x16, .f32⟩
  | .hbm, ⟨31, _⟩ => ⟨S5000x16, .f32⟩
  | .hbm, ⟨32, _⟩ => ⟨S5000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S10000x128_S5000x128_0_0 : S10000x128.Slices ![0, 0] S5000x128
  bcast_S16_S1x16_1 : S16.BroadcastsInDim S1x16 (![1] : Fin 1 → Fin S1x16.rank)
  bcast_S1x16_S5000x16_0_1 : S1x16.BroadcastsInDim S5000x16 (![0, 1] : Fin 2 → Fin S5000x16.rank)
  slices_S10000x128_S5000x128_5000_0 : S10000x128.Slices ![5000, 0] S5000x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S5000x128_S128x16_S5000x16_1_0_0_1_n_n_wf : DotDims.WF S5000x128 S128x16 S5000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

class Facts : Prop extends Facts₀ where

variable [Facts]
-- ==== Proof.KernelRun.lean ====
/-
  The whole program's run with its three result arrays kept.  The program is three pipelined regions among
  stretches of host operations; the buffer contents at each boundary are a fold from the launch memory (the last
  boundary's contents are `Gen.W6`).  Every weakly fair execution ends, nothing faulting, with every unscoped buffer
  at the last boundary's contents; read at the three result buffers that is the value the program returns, and read
  at the ten argument buffers it walks back to the launch memory.
-/
import proofs.«145531_g12206297055601_cont_week2_601_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the three results at the last boundary's
    contents and the ten arguments as launched. -/
theorem run_results : θ_run defs (onTc (τ := τ) (main (F := F))) ⟨m, fun _ => 0, ρ⟩ (fun r => ∀ c : Dev nD,
      r.2.mem ((c.tc : Thread nD τ).loc main_v11_0) = W6 m ρ c (Proc.devRef .tc main_v11_0)
      ∧ r.2.mem ((c.tc : Thread nD τ).loc main_v12) = W6 m ρ c (Proc.devRef .tc main_v12)
      ∧ r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11_0 (by decide)),
       h c _ (mem_uc main_v12 (by decide)),
       h c _ (mem_uc main_v13 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Whole

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.KernelBlocks.lean ====
/-
  What each kernel body computes from its loaded blocks, read at one entry on the extended reals.  A product into
  the zero accumulator is the finite sum over the contracted coordinate; a 1 × n bias row broadcast down the rows
  reads its entry in the column; the floor is the maximum with the zero word's value; a 1 × a × b block cast to
  a × b reads the block at (0, ·, ·).  The four dimension records are the four products of the program: their
  contracted axis has rank one, the left operand's rows follow the output's rows, and the right operand's columns
  follow the output's columns.
-/
import proofs.«145531_g12206297055601_cont_week2_601_2_alg».proof.Proof.Gen.KernelIdeal.Skeleton
import proofs.«145531_g12206297055601_cont_week2_601_2_alg».proof.Proof.LibRowsProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blocks

open Cert.KernelIdeal Cert.KernelIdeal.Gen
open Idealize.ShloMosaic Idealize.ShloMosaic.ValueIdx

/-! ## The four products -/

/-! ### a 2000-row block of X by W₁ -/

namespace supportDims

theorem lhs_row (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_contr (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem rhs_contr (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem rhs_col (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator at entry (p, u): Σ_k lhs (p, k) · rhs (k, u). -/
theorem product_apply (lhs : FVec Ideal S2000x128 .f32) (rhs : FVec Ideal S128x128 .f32) (p : Fin 2000) (u : Fin 128) :
    matmul dot_S2000x128_S128x128_S2000x128_1_0_0_1_n_n none lhs rhs (constant (F := Ideal) S2000x128 .f32 0x00000000#32) (ix2 p u)
      = ∑ k : Fin 128, lhs (ix2 p k) * rhs (ix2 k u) :=
  Cert.RowsProduct.matmul_zero_rows_apply dot_S2000x128_S128x128_S2000x128_1_0_0_1_n_n none rfl rfl lhs_row lhs_contr rhs_contr rhs_col lhs rhs p u

end supportDims

/-! ### a 200-row block of the adjacency by a whole 10000 × 128 array -/

namespace adjDims

theorem lhs_row (j : S200x128.Idx) (q : dot_S200x10000_S10000x128_S200x128_1_0_0_1_n_n.contr.Idx) : (dot_S200x10000_S10000x128_S200x128_1_0_0_1_n_n.lhsIdx j q 0).val = (j 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_contr (j : S200x128.Idx) (q : dot_S200x10000_S10000x128_S200x128_1_0_0_1_n_n.contr.Idx) : (dot_S200x10000_S10000x128_S200x128_1_0_0_1_n_n.lhsIdx j q 1).val = (q ⟨0, by decide⟩).val :=
  dot_S200x10000_S10000x128_S200x128_1_0_0_1_n_n.lhsIdx_val_of_single rfl j q
theorem rhs_contr (j : S200x128.Idx) (q : dot_S200x10000_S10000x128_S200x128_1_0_0_1_n_n.contr.Idx) : (dot_S200x10000_S10000x128_S200x128_1_0_0_1_n_n.rhsIdx j q 0).val = (q ⟨0, by decide⟩).val :=
  dot_S200x10000_S10000x128_S200x128_1_0_0_1_n_n.rhsIdx_val_of_single rfl j q
theorem rhs_col (j : S200x128.Idx) (q : dot_S200x10000_S10000x128_S200x128_1_0_0_1_n_n.contr.Idx) : (dot_S200x10000_S10000x128_S200x128_1_0_0_1_n_n.rhsIdx j q 1).val = (j 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into the zero accumulator at entry (p, u): Σ_k lhs (p, k) · rhs (k, u). -/
theorem product_apply (lhs : FVec Ideal S200x10000 .f32) (rhs : FVec Ideal S10000x128 .f32) (p : Fin 200) (u : Fin 128) :
    matmul dot_S200x10000_S10000x128_S200x128_1_0_0_1_n_n none lhs rhs (constant (F := Ideal) S200x128 .f32 0x00000000#32) (ix2 p u)
      = ∑ k : Fin 10000, lhs (ix2 p k) * rhs (ix2 k u) :=
  Cert.RowsProduct.matmul_zero_rows_apply dot_S200x10000_S10000x128_S200x128_1_0_0_1_n_n none rfl rfl lhs_row lhs_contr rhs_contr rhs_col lhs rhs p u

end adjDims

/-! ### a 200-row block by the second layer's weights -/

namespace featDims

theorem lhs_row (j : S200x128.Idx) (q : dot_S200x128_S128x128_S200x128_1_0_0_1_n_n.contr.Idx) : (dot_S200x128_S128x128_S200x128_1_0_0_1_n_n.lhsIdx j q 0).val = (j 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_contr (j : S200x128.Idx) (q : dot_S200x128_S128x128_S200x128_1_0_0_1_n_n.contr.Idx) : (dot_S200x128_S128x128_S200x128_1_0_0_1_n_n.lhsIdx j q 1).val = (q ⟨0, by decide⟩).val :=
  dot_S200x128_S128x128_S200x128_1_0_0_1_n_n.lhsIdx_val_of_single rfl j q
theorem rhs_contr (j : S200x128.Idx) (q : dot_S200x128_S128x128_S200x128_1_0_0_1_n_n.contr.Idx) : (dot_S200x128_S128x128_S200x128_1_0_0_1_n_n.rhsIdx j q 0).val = (q ⟨0, by decide⟩).val :=
  dot_S200x128_S128x128_S200x128_1_0_0_1_n_n.rhsIdx_val_of_single rfl j q
theorem rhs_col (j : S200x128.Idx) (q : dot_S200x128_S128x128_S200x128_1_0_0_1_n_n.contr.Idx) : (dot_S200x128_S128x128_S200x128_1_0_0_1_n_n.rhsIdx j q 1).val = (j 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The product into the zero accumulator at entry (p, u): Σ_k lhs (p, k) · rhs (k, u). -/
theorem product_apply (lhs : FVec Ideal S200x128 .f32) (rhs : FVec Ideal S128x128 .f32) (p : Fin 200) (u : Fin 128) :
    matmul dot_S200x128_S128x128_S200x128_1_0_0_1_n_n none lhs rhs (constant (F := Ideal) S200x128 .f32 0x00000000#32) (ix2 p u)
      = ∑ k : Fin 128, lhs (ix2 p k) * rhs (ix2 k u) :=
  Cert.RowsProduct.matmul_zero_rows_apply dot_S200x128_S128x128_S200x128_1_0_0_1_n_n none rfl rfl lhs_row lhs_contr rhs_contr rhs_col lhs rhs p u

end featDims

/-! ### a 200-row block by one head's weights -/

namespace headDims

theorem lhs_row (j : S200x16.Idx) (q : dot_S200x128_S128x16_S200x16_1_0_0_1_n_n.contr.Idx) : (dot_S200x128_S128x16_S200x16_1_0_0_1_n_n.lhsIdx j q 0).val = (j 0).val := by
  unfold DotDims.lhsIdx
  rw [dif_neg (show ¬(0 : Fin S200x128.rank) ∈ dot_S200x128_S128x16_S200x16_1_0_0_1_n_n.lhsBatch by decide), dif_pos (show (0 : Fin S200x128.rank) ∈ dot_S200x128_S128x16_S200x16_1_0_0_1_n_n.lhsNonContracting by decide)]
  rfl
theorem lhs_contr (j : S200x16.Idx) (q : dot_S200x128_S128x16_S200x16_1_0_0_1_n_n.contr.Idx) : (dot_S200x128_S128x16_S200x16_1_0_0_1_n_n.lhsIdx j q 1).val = (q ⟨0, by decide⟩).val :=
  dot_S200x128_S128x16_S200x16_1_0_0_1_n_n.lhsIdx_val_of_single rfl j q
theorem rhs_contr (j : S200x16.Idx) (q : dot_S200x128_S128x16_S200x16_1_0_0_1_n_n.contr.Idx) : (dot_S200x128_S128x16_S200x16_1_0_0_1_n_n.rhsIdx j q 0).val = (q ⟨0, by decide⟩).val :=
  dot_S200x128_S128x16_S200x16_1_0_0_1_n_n.rhsIdx_val_of_single rfl j q
theorem rhs_col (j : S200x16.Idx) (q : dot_S200x128_S128x16_S200x16_1_0_0_1_n_n.contr.Idx) : (dot_S200x128_S128x16_S200x16_1_0_0_1_n_n.rhsIdx j q 1).val = (j 1).val := by
  unfold DotDims.rhsIdx
  rw [dif_neg (show ¬(1 : Fin S128x16.rank) ∈ dot_S200x128_S128x16_S200x16_1_0_0_1_n_n.rhsBatch by decide), dif_pos (show (1 : Fin S128x16.rank) ∈ dot_S200x128_S128x16_S200x16_1_0_0_1_n_n.rhsNonContracting by decide)]
  rfl

/-- The product into the zero accumulator at entry (p, u): Σ_k lhs (p, k) · rhs (k, u). -/
theorem product_apply (lhs : FVec Ideal S200x128 .f32) (rhs : FVec Ideal S128x16 .f32) (p : Fin 200) (u : Fin 16) :
    matmul dot_S200x128_S128x16_S200x16_1_0_0_1_n_n none lhs rhs (constant (F := Ideal) S200x16 .f32 0x00000000#32) (ix2 p u)
      = ∑ k : Fin 128, lhs (ix2 p k) * rhs (ix2 k u) :=
  Cert.RowsProduct.matmul_zero_rows_apply dot_S200x128_S128x16_S200x16_1_0_0_1_n_n none rfl rfl lhs_row lhs_contr rhs_contr rhs_col lhs rhs p u

end headDims

/-! ## The bodies' values at an entry -/

/-- Region 0: a block of X times W₁. -/
theorem support_block_apply (x0 : FVec Ideal S2000x128 .f32) (x1 : FVec Ideal S128x128 .f32) (p : Fin 2000) (u : Fin 128) :
    k0_pay1 (F := Ideal) x0 x1 (ix2 p u) = ∑ k : Fin 128, x0 (ix2 p k) * x1 (ix2 k u) := by
  unfold k0_pay1
  exact supportDims.product_apply x0 x1 p u

/-- Region 2's first store: a block of A times T, plus the bias row. -/
theorem layerTwo_block_apply (x0 : FVec Ideal S200x10000 .f32) (x1 : FVec Ideal S10000x128 .f32) (x2 : FVec Ideal S1x128 .f32)
    (p : Fin 200) (u : Fin 128) :
    k2_pay1 (F := Ideal) x0 x1 x2 (ix2 p u) = (∑ k : Fin 10000, x0 (ix2 p k) * x1 (ix2 k u)) + x2 (ix2 (0 : Fin 1) u) := by
  unfold k2_pay1
  simp only [shapeCast_self]
  show matmul dot_S200x10000_S10000x128_S200x128_1_0_0_1_n_n none x0 x1 (constant (F := Ideal) S200x128 .f32 0x00000000#32) (ix2 p u)
      + broadcastTo S200x128 x2 broadcasts_S1x128_S200x128 (ix2 p u) = _
  rw [adjDims.product_apply x0 x1 p u, broadcastTo_1b_ab_apply x2 broadcasts_S1x128_S200x128 p u]

/-- Region 1: a block of A times the support, plus the bias row, floored at zero, times W₂. -/
theorem layerOne_block_apply (x0 : FVec Ideal S200x10000 .f32) (x1 : FVec Ideal S10000x128 .f32) (x2 : FVec Ideal S1x128 .f32)
    (x3 : FVec Ideal S128x128 .f32) (p : Fin 200) (u : Fin 128) :
    k1_pay1 (F := Ideal) x0 x1 x2 x3 (ix2 p u)
      = ∑ j : Fin 128, max ((∑ k : Fin 10000, x0 (ix2 p k) * x1 (ix2 k j)) + x2 (ix2 (0 : Fin 1) j))
          (Ideal.ofBits .f32 0x00000000#32) * x3 (ix2 j u) := by
  unfold k1_pay1
  simp only [shapeCast_self]
  refine (featDims.product_apply _ x3 p u).trans (Finset.sum_congr rfl fun j _ => ?_)
  refine congrArg (· * x3 (ix2 j u)) ?_
  show max (matmul dot_S200x10000_S10000x128_S200x128_1_0_0_1_n_n none x0 x1 (constant (F := Ideal) S200x128 .f32 0x00000000#32) (ix2 p j)
      + broadcastTo S200x128 x2 broadcasts_S1x128_S200x128 (ix2 p j)) _ = _
  rw [adjDims.product_apply x0 x1 p j, broadcastTo_1b_ab_apply x2 broadcasts_S1x128_S200x128 p j]
  rfl

/-- Region 2's second store: the block just stored times the head's 128 × 16 weights (held as a 1 × 128 × 16 block),
    plus the head's bias (held as a 1 × 1 × 16 block). -/
theorem head_block_apply (x0 : FVec Ideal S200x10000 .f32) (x1 : FVec Ideal S10000x128 .f32) (x2 : FVec Ideal S1x128 .f32)
    (x3 : FVec Ideal S1x128x16 .f32) (x4 : FVec Ideal S1x1x16 .f32) (p : Fin 200) (c : Fin 16) :
    k2_pay2 (F := Ideal) x0 x1 x2 x3 x4 (ix2 p c)
      = (∑ j : Fin 128, k2_pay1 (F := Ideal) x0 x1 x2 (ix2 p j) * x3 (ix3 (0 : Fin 1) j c))
          + x4 (ix3 (0 : Fin 1) (0 : Fin 1) c) := by
  unfold k2_pay2
  show matmul dot_S200x128_S128x16_S200x16_1_0_0_1_n_n none (k2_pay1 (F := Ideal) x0 x1 x2) (shapeCast S128x16 x3 shapeCasts_S1x128x16_S128x16)
        (constant (F := Ideal) S200x16 .f32 0x00000000#32) (ix2 p c)
      + broadcastTo S200x16 (shapeCast S1x16 x4 shapeCasts_S1x1x16_S1x16) broadcasts_S1x16_S200x16 (ix2 p c) = _
  rw [headDims.product_apply _ _ p c, broadcastTo_1b_ab_apply _ broadcasts_S1x16_S200x16 p c,
    shapeCast_1ab_ab_apply x4 shapeCasts_S1x1x16_S1x16 (0 : Fin 1) c]
  refine congrArg (· + _) (Finset.sum_congr rfl fun j _ => ?_)
  rw [shapeCast_1ab_ab_apply x3 shapeCasts_S1x128x16_S128x16 j c]

end Cert.KernelIdeal.Blocks

end
-- ==== Proof.GraphConv.lean ====
/-
  Two graph-convolution layers over a dense adjacency and one linear head per half of the nodes, written index by
  index on the extended reals.  With n nodes, adjacency A (n × n), features X (n × f) and weights W₁, W₂ (f × f):

      S  = X · W₁                          (the support)
      T  = max(A · S + b₁, 0) · W₂         (first layer, floored at zero, then the second layer's feature product)
      H  = A · T + b₂                      (second layer: the node features returned)
      text = H[0 .. h) · Wc₁ + bc₁,   image = H[h .. 2h) · Wc₂ + bc₂     (one head per half of the rows)

  Every product is the finite sum over the contracted coordinate, every bias a row added to each row of an array.
  The floor's zero is kept as the zero word's value, the same word on both sides of the comparison this file serves.
  Nothing here knows a program: arrays are functions on the literal index types, indices are built from coordinates.
-/
import Idealize.ShloMosaic.Lib.ValueIdx
import Idealize.ShloMosaic.PureOps.Ideal

noncomputable section

open scoped BigOperators

namespace Cert.GraphConv

open Idealize.ShloMosaic Idealize.ShloMosaic.ValueIdx

/-- An a × b array of extended reals. -/
abbrev Arr2 (a b : ℕ) : Type := FVec Ideal ⟨2, ![a, b]⟩ .f32
/-- A length-a row of extended reals. -/
abbrev Arr1 (a : ℕ) : Type := FVec Ideal ⟨1, ![a]⟩ .f32

variable {a K b : ℕ}

/-- The product of an a × K array by a K × b array: entry (p, u) is Σ_k x (p, k) · w (k, u). -/
def prod (x : Arr2 a K) (w : Arr2 K b) : Arr2 a b :=
  fun j => ∑ k : Fin K, x (ix2 (j 0) k) * w (ix2 k (j 1))

theorem prod_apply (x : Arr2 a K) (w : Arr2 K b) (p : Fin a) (u : Fin b) :
    prod x w (ix2 p u) = ∑ k : Fin K, x (ix2 p k) * w (ix2 k u) := rfl

/-- A row added to every row of an array: entry (p, u) is y (p, u) + r u. -/
def addRow (y : Arr2 a b) (r : Arr1 b) : Arr2 a b := fun j => y j + r (ix1 (j 1))

theorem addRow_apply (y : Arr2 a b) (r : Arr1 b) (p : Fin a) (u : Fin b) :
    addRow y r (ix2 p u) = y (ix2 p u) + r (ix1 u) := rfl

/-- Every entry floored at zero (the zero word's value). -/
def floorZero (y : Arr2 a b) : Arr2 a b := fun j => max (y j) (Ideal.ofBits .f32 0x00000000#32)

theorem floorZero_apply (y : Arr2 a b) (p : Fin a) (u : Fin b) :
    floorZero y (ix2 p u) = max (y (ix2 p u)) (Ideal.ofBits .f32 0x00000000#32) := rfl

/-- The one row of a 1 × b array, as a row. -/
def rowOf (r : Arr2 1 b) : Arr1 b := fun j => r (ix2 (0 : Fin 1) (j 0))

theorem rowOf_apply (r : Arr2 1 b) (u : Fin b) : rowOf r (ix1 u) = r (ix2 (0 : Fin 1) u) := rfl

variable {n f : ℕ}

/-- The first layer floored at zero, then multiplied by the second layer's weights: max(A · S + b₁, 0) · W₂. -/
def layerOne (adj : Arr2 n n) (s : Arr2 n f) (b1 : Arr1 f) (w2 : Arr2 f b) : Arr2 n b :=
  prod (floorZero (addRow (prod adj s) b1)) w2

/-- The second layer: A · T + b₂. -/
def layerTwo (adj : Arr2 n n) (t : Arr2 n f) (b2 : Arr1 f) : Arr2 n f := addRow (prod adj t) b2

/-- The h rows of y from row `off` on, times the head's weights, plus the head's bias row. -/
def head {h : ℕ} (off : ℕ) (hoff : off + h ≤ n) (y : Arr2 n f) (wc : Arr2 f b) (bc : Arr1 b) : Arr2 h b :=
  fun j => (∑ k : Fin f, y (ix2 (⟨off + (j 0).val, by have := idx2_lt0 j; omega⟩ : Fin n) k) * wc (ix2 k (j 1))) + bc (ix1 (j 1))

theorem head_apply {h : ℕ} (off : ℕ) (hoff : off + h ≤ n) (y : Arr2 n f) (wc : Arr2 f b) (bc : Arr1 b)
    (p : Fin h) (u : Fin b) :
    head off hoff y wc bc (ix2 p u)
      = (∑ k : Fin f, y (ix2 (⟨off + p.val, by have := p.isLt; omega⟩ : Fin n) k) * wc (ix2 k u)) + bc (ix1 u) := rfl

/-- The node features returned: A · (max(A · (X · W₁) + b₁, 0) · W₂) + b₂. -/
def nodeFeatures (x : Arr2 10000 128) (adj : Arr2 10000 10000) (w1 : Arr2 128 128) (b1 : Arr1 128)
    (w2 : Arr2 128 128) (b2 : Arr1 128) : Arr2 10000 128 :=
  layerTwo adj (layerOne adj (prod x w1) b1 w2) b2

/-- The text head's scores: the first 5000 rows of the node features through the first head. -/
def textScores (x : Arr2 10000 128) (adj : Arr2 10000 10000) (w1 : Arr2 128 128) (b1 : Arr1 128)
    (w2 : Arr2 128 128) (b2 : Arr1 128) (wc : Arr2 128 16) (bc : Arr1 16) : Arr2 5000 16 :=
  head 0 (by decide) (nodeFeatures x adj w1 b1 w2 b2) wc bc

/-- The image head's scores: the last 5000 rows of the node features through the second head. -/
def imageScores (x : Arr2 10000 128) (adj : Arr2 10000 10000) (w1 : Arr2 128 128) (b1 : Arr1 128)
    (w2 : Arr2 128 128) (b2 : Arr1 128) (wc : Arr2 128 16) (bc : Arr1 16) : Arr2 5000 16 :=
  head 5000 (by decide) (nodeFeatures x adj w1 b1 w2 b2) wc bc

end Cert.GraphConv

end
-- ==== Proof.SupportRegion.lean ====
/-
  Region 0: the support S = X · W₁.  The region runs over five points; point t loads rows 2000·t … 2000·t + 1999 of
  X and the whole of W₁, and writes back the same rows of the output.  So block t of the output is block t of the
  product X · W₁ of the two arrays the region finds, the five blocks tile the 10000 rows, and the output array ends
  holding X · W₁.  Stated at a parameter `V`: the buffer contents when the region is entered.
-/
import proofs.«145531_g12206297055601_cont_week2_601_2_alg».proof.Proof.Gen.KernelIdeal.Frame
import proofs.«145531_g12206297055601_cont_week2_601_2_alg».proof.Proof.KernelBlocks
import proofs.«145531_g12206297055601_cont_week2_601_2_alg».proof.Proof.GraphConv
import Idealize.ShloMosaic.Lib.Pipeline.Value

set_option maxRecDepth 16384

noncomputable section

open scoped BigOperators

namespace Cert.KernelIdeal.SupportRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the X block and the output block of point t are block row t, the W₁ block
    is the whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The X block at point t, entry (p, k), is X at row 2000·t + p. -/
theorem x_block_apply (c : Dev nD) (t : Fin cfg0.N) (y : S2000x128.Idx) (i : S10000x128.Idx)
    (h0 : (i 0).val = 2000 * t.val + (y 0).val) (h1 : (i 1).val = (y 1).val) :
    (iblk0 V c 0 t : Vec Ideal S2000x128 .f32) y = (V c main_arg0 : S10000x128.Idx → Elt Ideal .f32) i := by
  obtain ⟨e0, e1, -⟩ := block_indices t
  unfold iblk0
  rw [View.read_apply]
  show V c main_arg0 _ = V c main_arg0 i
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- The W₁ block at every point is W₁. -/
theorem w_block_apply (c : Dev nD) (t : Fin cfg0.N) (y : S128x128.Idx) :
    (iblk0 V c 1 t : Vec Ideal S128x128 .f32) y = (V c main_arg2 : S128x128.Idx → Elt Ideal .f32) y := by
  obtain ⟨-, -, e0, e1, -⟩ := block_indices t
  unfold iblk0
  rw [View.read_apply]
  show V c main_arg2 _ = V c main_arg2 y
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The array the region's output ends holding: the product of the two arrays it finds. -/
abbrev support (c : Dev nD) : Arr2 10000 128 := prod (V c main_arg0 : Arr2 10000 128) (V c main_arg2 : Arr2 128 128)

/-- One entry of what a point's body stores: entry (p, u) of a block of 2000 rows, whose rows are rows r₀ + p of X
    and whose second operand is W₁, is entry (r₀ + p, u) of X · W₁. -/
theorem stored_entry (x0 : FVec Ideal S2000x128 .f32) (x1 : FVec Ideal S128x128 .f32) (X : Arr2 10000 128) (W : Arr2 128 128)
    (p : Fin 2000) (u : Fin 128) (r : Fin 10000)
    (hx0 : ∀ k : Fin 128, x0 (ix2 p k) = X (ix2 r k)) (hx1 : ∀ k : Fin 128, x1 (ix2 k u) = W (ix2 k u)) :
    k0_pay1 (F := Ideal) x0 x1 (ix2 p u) = prod X W (ix2 r u) := by
  rw [Blocks.support_block_apply, prod_apply]
  exact Finset.sum_congr rfl fun k _ => by rw [hx0 k, hx1 k]

/-- What point t writes back is block t of the support. -/
theorem flushed_support (c : Dev nD) (t : Fin cfg0.N) :
    (dat0 V c).flushed 2 t = ((cfg0.win 2).blk t).view.read (Elt Ideal) (support V c) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨-, -, -, -, e0, e1⟩ := block_indices t
  have ht : t.val < 5 := lt_of_lt_of_eq t.isLt (show cfg0.N = 5 from N_0)
  funext y
  have hp : (y 0).val < 2000 := (y 0).isLt
  have hu : (y 1).val < 128 := (y 1).isLt
  show k0_pay1 (F := Ideal) (iblk0 V c 0 t) (iblk0 V c 1 t) y = support V c (((cfg0.win 2).blk t).view.emb y)
  have hy : (y : S2000x128.Idx) = ix2 (⟨(y 0).val, hp⟩ : Fin 2000) (⟨(y 1).val, hu⟩ : Fin 128) := eq_ix2 y
  have hemb : ((cfg0.win 2).blk t).view.emb y
      = ix2 (⟨2000 * t.val + (y 0).val, by omega⟩ : Fin 10000) (⟨(y 1).val, hu⟩ : Fin 128) := by
    funext a
    apply Fin.ext
    match a with
    | ⟨0, _⟩ => show win0_2.index t 0 * 2000 + 1 * (y 0).val = 2000 * t.val + (y 0).val; rw [e0]; omega
    | ⟨1, _⟩ => show win0_2.index t 1 * 128 + 1 * (y 1).val = (y 1).val; rw [e1]; omega
  refine (congrArg (k0_pay1 (F := Ideal) (iblk0 V c 0 t) (iblk0 V c 1 t)) hy).trans ?_
  rw [hemb]
  exact stored_entry (iblk0 V c 0 t) (iblk0 V c 1 t) (V c main_arg0) (V c main_arg2) ⟨(y 0).val, hp⟩ ⟨(y 1).val, hu⟩
    ⟨2000 * t.val + (y 0).val, by omega⟩
    (fun k => x_block_apply V c t _ _ rfl rfl) (fun k => w_block_apply V c t _)

/-- An index of the output array is in point t's block iff its row is one of the block's 2000 rows. -/
theorem mem_block (t : Fin cfg0.N) (i : S10000x128.Idx) :
    i ∈ ((cfg0.win 2).blk t).view.set
      ↔ ∀ a : Fin 2, win0_2.index t a * S2000x128.size a ≤ (i a).val
          ∧ (i a).val < win0_2.index t a * S2000x128.size a + S2000x128.size a := by
  show i ∈ ((View.whole main_v0).slice (win0_2.rect t)).set ↔ _
  rw [View.set_slice_whole, Rect.mem_set_unit]
  exact Iff.rfl

/-- Row r lies in the block of point r / 2000: the five blocks tile the array. -/
theorem rows_covered (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ : ∃ t : Fin cfg0.N, t.val = (i 0).val / 2000 :=
    ⟨⟨(i 0).val / 2000, by rw [show cfg0.N = 5 from N_0]; omega⟩, rfl⟩
  obtain ⟨-, -, -, -, e0, e1⟩ := block_indices t
  refine ⟨t, flush0_2 t, ?_⟩
  rw [mem_block]
  intro a
  match a with
  | ⟨0, _⟩ =>
    show win0_2.index t 0 * 2000 ≤ (i 0).val ∧ (i 0).val < win0_2.index t 0 * 2000 + 2000
    rw [e0, ht]; omega
  | ⟨1, _⟩ =>
    show win0_2.index t 1 * 128 ≤ (i 1).val ∧ (i 1).val < win0_2.index t 1 * 128 + 128
    rw [e1]; omega

/-- The output array after the region: X · W₁ of the arrays the region finds. -/
theorem support_array (c : Dev nD) : (dat0 V c).arrAt 2 cfg0.N = support V c :=
  (dat0 V c).arrAt_eq_of_cover 2 (support V c) (fun t _ => flushed_support V c t) rows_covered

end Cert.KernelIdeal.SupportRegion

end
-- ==== Proof.FirstLayerRegion.lean ====
/-
  Region 1: T = max(A · S + b₁, 0) · W₂.  The region runs over fifty points; point t loads rows 200·t … 200·t + 199 of
  the adjacency A and the whole of S (10000 × 128), of the bias row (held as a 1 × 128 array) and of W₂, and writes
  back the same 200 rows of the output.  An entry of A · S + b₁ in row r reads only row r of A, so block t of the
  output is block t of the whole-array function; the fifty blocks tile the 10000 rows.  Stated at a parameter `V`:
  the buffer contents when the region is entered.
-/
import proofs.«145531_g12206297055601_cont_week2_601_2_alg».proof.Proof.Gen.KernelIdeal.Frame
import proofs.«145531_g12206297055601_cont_week2_601_2_alg».proof.Proof.KernelBlocks
import proofs.«145531_g12206297055601_cont_week2_601_2_alg».proof.Proof.GraphConv
import Idealize.ShloMosaic.Lib.Pipeline.Value

set_option maxRecDepth 16384

noncomputable section

open scoped BigOperators

namespace Cert.KernelIdeal.FirstLayerRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the adjacency block and the output block of point t are block row t; the
    other three windows are whole arrays. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point t, entry (p, k), is A at row 200·t + p. -/
theorem adj_block_apply (c : Dev nD) (t : Fin cfg1.N) (y : S200x10000.Idx) (i : S10000x10000.Idx)
    (h0 : (i 0).val = 200 * t.val + (y 0).val) (h1 : (i 1).val = (y 1).val) :
    (iblk1 V c 0 t : Vec Ideal S200x10000 .f32) y = (V c main_arg1 : S10000x10000.Idx → Elt Ideal .f32) i := by
  obtain ⟨e0, e1, -⟩ := block_indices t
  unfold iblk1
  rw [View.read_apply]
  show V c main_arg1 _ = V c main_arg1 i
  congr 1
  funext a
  apply Fin.ext
  match a with
  | ⟨0, _⟩ => show win1_0.index t 0 * 200 + 1 * (y 0).val = (i 0).val; rw [e0, h0]; omega
  | ⟨1, _⟩ => show win1_0.index t 1 * 10000 + 1 * (y 1).val = (i 1).val; rw [e1, h1]; omega

/-- The support window's block at every point is the whole array. -/
theorem support_block (c : Dev nD) (t : Fin cfg1.N) :
    (iblk1 V c 1 t : Vec Ideal S10000x128 .f32) = (V c main_v0 : S10000x128.Idx → Elt Ideal .f32) := by
  obtain ⟨-, -, e0, e1, -⟩ := block_indices t
  funext y
  unfold iblk1
  rw [View.read_apply]
  show V c main_v0 _ = V c main_v0 y
  congr 1
  funext a
  apply Fin.ext
  match a with
  | ⟨0, _⟩ => show win1_1.index t 0 * 10000 + 1 * (y 0).val = (y 0).val; rw [e0]; omega
  | ⟨1, _⟩ => show win1_1.index t 1 * 128 + 1 * (y 1).val = (y 1).val; rw [e1]; omega

/-- The bias window's block at every point is the whole 1 × 128 array. -/
theorem bias_block (c : Dev nD) (t : Fin cfg1.N) :
    (iblk1 V c 2 t : Vec Ideal S1x128 .f32) = (V c main_v1 : S1x128.Idx → Elt Ideal .f32) := by
  obtain ⟨-, -, -, -, e0, e1, -⟩ := block_indices t
  funext y
  unfold iblk1
  rw [View.read_apply]
  show V c main_v1 _ = V c main_v1 y
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- The W₂ window's block at every point is the whole array. -/
theorem weights_block (c : Dev nD) (t : Fin cfg1.N) :
    (iblk1 V c 3 t : Vec Ideal S128x128 .f32) = (V c main_arg4 : S128x128.Idx → Elt Ideal .f32) := by
  obtain ⟨-, -, -, -, -, -, e0, e1, -⟩ := block_indices t
  funext y
  unfold iblk1
  rw [View.read_apply]
  show V c main_arg4 _ = V c main_arg4 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The array the region's output ends holding: max(A · S + b₁, 0) · W₂ of the four arrays it finds. -/
abbrev firstLayer (c : Dev nD) : Arr2 10000 128 :=
  layerOne (V c main_arg1 : Arr2 10000 10000) (V c main_v0 : Arr2 10000 128) (rowOf (V c main_v1 : Arr2 1 128))
    (V c main_arg4 : Arr2 128 128)

/-- One entry of what a point's body stores: with the block's rows being rows r of A and the other operands whole,
    entry (p, u) of the block is entry (r, u) of max(A · S + b₁, 0) · W₂. -/
theorem stored_entry (x0 : FVec Ideal S200x10000 .f32) (A : Arr2 10000 10000) (S : Arr2 10000 128) (B : Arr2 1 128)
    (W : Arr2 128 128) (p : Fin 200) (u : Fin 128) (r : Fin 10000)
    (hx0 : ∀ k : Fin 10000, x0 (ix2 p k) = A (ix2 r k)) :
    k1_pay1 (F := Ideal) x0 S B W (ix2 p u) = layerOne A S (rowOf B) W (ix2 r u) := by
  rw [Blocks.layerOne_block_apply]
  unfold layerOne
  rw [prod_apply]
  refine Finset.sum_congr rfl fun j _ => ?_
  rw [floorZero_apply, addRow_apply, prod_apply, rowOf_apply]
  refine congrArg (fun z => max (z + B (ix2 (0 : Fin 1) j)) (Ideal.ofBits .f32 0x00000000#32) * W (ix2 j u)) ?_
  exact Finset.sum_congr rfl fun k _ => by rw [hx0 k]

/-- What point t writes back is block t of the first layer's array. -/
theorem flushed_firstLayer (c : Dev nD) (t : Fin cfg1.N) :
    (dat1 V c).flushed 4 t = ((cfg1.win 4).blk t).view.read (Elt Ideal) (firstLayer V c) := by
  show (cfg1.win 4).cut (grid1.coords t) ((dat1 V c).after 4 t) = _
  rw [after1_4]
  unfold out1_4
  rw [View.canon_unit_zero zero_offsets]
  simp only [View.ld_unit_zero (S := S200x10000) zero_offsets, View.ld_unit_zero (S := S10000x128) zero_offsets,
    View.ld_unit_zero (S := S1x128) zero_offsets, View.ld_unit_zero (S := S128x128) zero_offsets]
  rw [support_block V c t, bias_block V c t, weights_block V c t]
  obtain ⟨-, -, -, -, -, -, -, -, e0, e1⟩ := block_indices t
  have ht : t.val < 50 := lt_of_lt_of_eq t.isLt (show cfg1.N = 50 from N_1)
  funext y
  have hp : (y 0).val < 200 := (y 0).isLt
  have hu : (y 1).val < 128 := (y 1).isLt
  show k1_pay1 (F := Ideal) (iblk1 V c 0 t) (V c main_v0) (V c main_v1) (V c main_arg4) y
      = firstLayer V c (((cfg1.win 4).blk t).view.emb y)
  have hy : (y : S200x128.Idx) = ix2 (⟨(y 0).val, hp⟩ : Fin 200) (⟨(y 1).val, hu⟩ : Fin 128) := eq_ix2 y
  have hemb : ((cfg1.win 4).blk t).view.emb y
      = ix2 (⟨200 * t.val + (y 0).val, by omega⟩ : Fin 10000) (⟨(y 1).val, hu⟩ : Fin 128) := by
    funext a
    apply Fin.ext
    match a with
    | ⟨0, _⟩ => show win1_4.index t 0 * 200 + 1 * (y 0).val = 200 * t.val + (y 0).val; rw [e0]; omega
    | ⟨1, _⟩ => show win1_4.index t 1 * 128 + 1 * (y 1).val = (y 1).val; rw [e1]; omega
  refine (congrArg (k1_pay1 (F := Ideal) (iblk1 V c 0 t) (V c main_v0) (V c main_v1) (V c main_arg4)) hy).trans ?_
  rw [hemb]
  exact stored_entry (iblk1 V c 0 t) (V c main_arg1) (V c main_v0) (V c main_v1) (V c main_arg4)
    ⟨(y 0).val, hp⟩ ⟨(y 1).val, hu⟩ ⟨200 * t.val + (y 0).val, by omega⟩
    (fun k => adj_block_apply V c t _ _ rfl rfl)

/-- An index of the output array is in point t's block iff its row is one of the block's 200 rows. -/
theorem mem_block (t : Fin cfg1.N) (i : S10000x128.Idx) :
    i ∈ ((cfg1.win 4).blk t).view.set
      ↔ ∀ a : Fin 2, win1_4.index t a * S200x128.size a ≤ (i a).val
          ∧ (i a).val < win1_4.index t a * S200x128.size a + S200x128.size a := by
  show i ∈ ((View.whole main_v2).slice (win1_4.rect t)).set ↔ _
  rw [View.set_slice_whole, Rect.mem_set_unit]
  exact Iff.rfl

/-- Row r lies in the block of point r / 200: the fifty blocks tile the array. -/
theorem rows_covered (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 200 :=
    ⟨⟨(i 0).val / 200, by rw [show cfg1.N = 50 from N_1]; omega⟩, rfl⟩
  obtain ⟨-, -, -, -, -, -, -, -, e0, e1⟩ := block_indices t
  refine ⟨t, flush1_4 t, ?_⟩
  rw [mem_block]
  intro a
  match a with
  | ⟨0, _⟩ =>
    show win1_4.index t 0 * 200 ≤ (i 0).val ∧ (i 0).val < win1_4.index t 0 * 200 + 200
    rw [e0, ht]; omega
  | ⟨1, _⟩ =>
    show win1_4.index t 1 * 128 ≤ (i 1).val ∧ (i 1).val < win1_4.index t 1 * 128 + 128
    rw [e1]; omega

/-- The output array after the region: max(A · S + b₁, 0) · W₂ of the arrays the region finds. -/
theorem firstLayer_array (c : Dev nD) : (dat1 V c).arrAt 4 cfg1.N = firstLayer V c :=
  (dat1 V c).arrAt_eq_of_cover 4 (firstLayer V c) (fun t _ => flushed_firstLayer V c t) rows_covered

end Cert.KernelIdeal.FirstLayerRegion

end
-- ==== Proof.HeadStack.lean ====
/-
  Two heads stacked.  The second region holds both heads' weights as one 2 × f × c array and both bias rows as one
  2 × 1 × c array, and sends row r of the node features through slab r / h of the stack, h being the number of rows
  of each half.  Read on the rows of one half this is that half's head: rows 0 … h − 1 go through slab 0, rows
  h … 2h − 1 through slab 1.
-/
import proofs.«145531_g12206297055601_cont_week2_601_2_alg».proof.Proof.GraphConv

noncomputable section

open scoped BigOperators

namespace Cert.GraphConv

open Idealize.ShloMosaic Idealize.ShloMosaic.ValueIdx

/-- Two f × c arrays stacked. -/
abbrev Stack2 (f c : ℕ) : Type := FVec Ideal ⟨3, ![2, f, c]⟩ .f32

/-- Every row of `y` through the head of its half: row r uses slab r / 5000 of the stacked weights and biases. -/
def scoresOf (y : Arr2 10000 128) (wst : Stack2 128 16) (bst : Stack2 1 16) : Arr2 10000 16 :=
  fun j =>
    (∑ k : Fin 128, y (ix2 (j 0) k)
        * wst (ix3 (⟨(j 0).val / 5000, by have := idx2_lt0 j; omega⟩ : Fin 2) k (j 1)))
      + bst (ix3 (⟨(j 0).val / 5000, by have := idx2_lt0 j; omega⟩ : Fin 2) (0 : Fin 1) (j 1))

/-- A row of the 10000 lies in half 0 or half 1. -/
theorem half_lt (r : Fin 10000) : r.val / 5000 < 2 := by have := r.isLt; omega

theorem scoresOf_apply (y : Arr2 10000 128) (wst : Stack2 128 16) (bst : Stack2 1 16) (r : Fin 10000) (e : Fin 16)
    (h : Fin 2) (hh : h.val = r.val / 5000) :
    scoresOf y wst bst (ix2 r e) = (∑ k : Fin 128, y (ix2 r k) * wst (ix3 h k e)) + bst (ix3 h (0 : Fin 1) e) := by
  have eh : (⟨r.val / 5000, half_lt r⟩ : Fin 2) = h := Fin.ext hh.symm
  rw [← eh]
  rfl

/-- On the first 5000 rows the stacked heads are the head whose arrays are slab 0. -/
theorem scoresOf_firstHalf (y : Arr2 10000 128) (wst : Stack2 128 16) (bst : Stack2 1 16) (wc : Arr2 128 16) (bc : Arr1 16)
    (hw : ∀ (k : Fin 128) (e : Fin 16), wst (ix3 (0 : Fin 2) k e) = wc (ix2 k e))
    (hb : ∀ e : Fin 16, bst (ix3 (0 : Fin 2) (0 : Fin 1) e) = bc (ix1 e))
    (p : Fin 5000) (e : Fin 16) (r : Fin 10000) (hr : r.val = 0 + p.val) :
    scoresOf y wst bst (ix2 r e) = head 0 (by decide) y wc bc (ix2 p e) := by
  rw [scoresOf_apply y wst bst r e (0 : Fin 2) (by have := p.isLt; show 0 = r.val / 5000; omega), head_apply, hb e]
  refine congrArg (· + bc (ix1 e)) (Finset.sum_congr rfl fun k _ => ?_)
  rw [hw k e]
  exact congrArg (fun q : Fin 10000 => y (ix2 q k) * wc (ix2 k e)) (Fin.ext hr)

/-- On the last 5000 rows the stacked heads are the head whose arrays are slab 1. -/
theorem scoresOf_secondHalf (y : Arr2 10000 128) (wst : Stack2 128 16) (bst : Stack2 1 16) (wc : Arr2 128 16) (bc : Arr1 16)
    (hw : ∀ (k : Fin 128) (e : Fin 16), wst (ix3 (1 : Fin 2) k e) = wc (ix2 k e))
    (hb : ∀ e : Fin 16, bst (ix3 (1 : Fin 2) (0 : Fin 1) e) = bc (ix1 e))
    (p : Fin 5000) (e : Fin 16) (r : Fin 10000) (hr : r.val = 5000 + p.val) :
    scoresOf y wst bst (ix2 r e) = head 5000 (by decide) y wc bc (ix2 p e) := by
  rw [scoresOf_apply y wst bst r e (1 : Fin 2) (by have := p.isLt; show 1 = r.val / 5000; omega), head_apply, hb e]
  refine congrArg (· + bc (ix1 e)) (Finset.sum_congr rfl fun k _ => ?_)
  rw [hw k e]
  exact congrArg (fun q : Fin 10000 => y (ix2 q k) * wc (ix2 k e)) (Fin.ext hr)

end Cert.GraphConv

end
-- ==== Proof.SecondLayerRegion.lean ====
/-
  Region 2: H = A · T + b₂, and every row of H through the head of its half.  The region runs over fifty points;
  point t loads rows 200·t … 200·t + 199 of the adjacency A, the whole of T (10000 × 128) and of the bias row (held
  as a 1 × 128 array), and slab t / 25 of the two stacked heads (weights 2 × 128 × 16, biases 2 × 1 × 16); it writes
  back the same 200 rows of both outputs.  Rows 200·t … 200·t + 199 all lie in half t / 25 of the 10000 rows
  (5000 rows are 25 blocks), so block t of the second output is block t of "row r through slab r / 5000".  The fifty
  blocks tile the rows of both outputs.  Stated at a parameter `V`: the buffer contents when the region is entered.
-/
import proofs.«145531_g12206297055601_cont_week2_601_2_alg».proof.Proof.Gen.KernelIdeal.Frame
import proofs.«145531_g12206297055601_cont_week2_601_2_alg».proof.Proof.KernelBlocks
import proofs.«145531_g12206297055601_cont_week2_601_2_alg».proof.Proof.HeadStack
import Idealize.ShloMosaic.Lib.Pipeline.Value

set_option maxRecDepth 16384

noncomputable section

open scoped BigOperators

namespace Cert.KernelIdeal.SecondLayerRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl
theorem zero_offsets3 : (![0, 0, 0] : Fin 3 → Nat) = fun _ => 0 := funext fun a => by fin_cases a <;> rfl

/-- The printed index maps over the grid: the adjacency block and both output blocks of point t are block row t;
    T and the bias row are whole arrays; the two head windows are slab t / 25 of the stacks. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val / 25 ∧ win2_3.index t (1 : Fin 3) = 0 ∧ win2_3.index t (2 : Fin 3) = 0
    ∧ win2_4.index t (0 : Fin 3) = t.val / 25 ∧ win2_4.index t (1 : Fin 3) = 0 ∧ win2_4.index t (2 : Fin 3) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The adjacency block at point t, entry (p, k), is A at row 200·t + p. -/
theorem adj_block_apply (c : Dev nD) (t : Fin cfg2.N) (y : S200x10000.Idx) (i : S10000x10000.Idx)
    (h0 : (i 0).val = 200 * t.val + (y 0).val) (h1 : (i 1).val = (y 1).val) :
    (iblk2 V c 0 t : Vec Ideal S200x10000 .f32) y = (V c main_arg1 : S10000x10000.Idx → Elt Ideal .f32) i := by
  obtain ⟨e0, e1, -⟩ := block_indices t
  unfold iblk2
  rw [View.read_apply]
  show V c main_arg1 _ = V c main_arg1 i
  congr 1
  funext a
  apply Fin.ext
  match a with
  | ⟨0, _⟩ => show win2_0.index t 0 * 200 + 1 * (y 0).val = (i 0).val; rw [e0, h0]; omega
  | ⟨1, _⟩ => show win2_0.index t 1 * 10000 + 1 * (y 1).val = (i 1).val; rw [e1, h1]; omega

/-- The T window's block at every point is the whole array. -/
theorem t_block (c : Dev nD) (t : Fin cfg2.N) :
    (iblk2 V c 1 t : Vec Ideal S10000x128 .f32) = (V c main_v2 : S10000x128.Idx → Elt Ideal .f32) := by
  obtain ⟨-, -, e0, e1, -⟩ := block_indices t
  funext y
  unfold iblk2
  rw [View.read_apply]
  show V c main_v2 _ = V c main_v2 y
  congr 1
  funext a
  apply Fin.ext
  match a with
  | ⟨0, _⟩ => show win2_1.index t 0 * 10000 + 1 * (y 0).val = (y 0).val; rw [e0]; omega
  | ⟨1, _⟩ => show win2_1.index t 1 * 128 + 1 * (y 1).val = (y 1).val; rw [e1]; omega

/-- The bias window's block at every point is the whole 1 × 128 array. -/
theorem bias_block (c : Dev nD) (t : Fin cfg2.N) :
    (iblk2 V c 2 t : Vec Ideal S1x128 .f32) = (V c main_v10 : S1x128.Idx → Elt Ideal .f32) := by
  obtain ⟨-, -, -, -, e0, e1, -⟩ := block_indices t
  funext y
  unfold iblk2
  rw [View.read_apply]
  show V c main_v10 _ = V c main_v10 y
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- The head-weights block at point t, entry (0, j, e), is slab t / 25 of the stacked weights at (j, e). -/
theorem weights_block_apply (c : Dev nD) (t : Fin cfg2.N) (y : S1x128x16.Idx) (i : S2x128x16.Idx)
    (h0 : (i 0).val = t.val / 25 + (y 0).val) (h1 : (i 1).val = (y 1).val) (h2 : (i 2).val = (y 2).val) :
    (iblk2 V c 3 t : Vec Ideal S1x128x16 .f32) y = (V c main_v5 : S2x128x16.Idx → Elt Ideal .f32) i := by
  obtain ⟨-, -, -, -, -, -, e0, e1, e2, -⟩ := block_indices t
  unfold iblk2
  rw [View.read_apply]
  show V c main_v5 _ = V c main_v5 i
  congr 1
  funext a
  apply Fin.ext
  match a with
  | ⟨0, _⟩ => show win2_3.index t 0 * 1 + 1 * (y 0).val = (i 0).val; rw [e0, h0]; omega
  | ⟨1, _⟩ => show win2_3.index t 1 * 128 + 1 * (y 1).val = (i 1).val; rw [e1, h1]; omega
  | ⟨2, _⟩ => show win2_3.index t 2 * 16 + 1 * (y 2).val = (i 2).val; rw [e2, h2]; omega

/-- The head-bias block at point t, entry (0, 0, e), is slab t / 25 of the stacked biases at e. -/
theorem headBias_block_apply (c : Dev nD) (t : Fin cfg2.N) (y : S1x1x16.Idx) (i : S2x1x16.Idx)
    (h0 : (i 0).val = t.val / 25 + (y 0).val) (h1 : (i 1).val = (y 1).val) (h2 : (i 2).val = (y 2).val) :
    (iblk2 V c 4 t : Vec Ideal S1x1x16 .f32) y = (V c main_v9 : S2x1x16.Idx → Elt Ideal .f32) i := by
  obtain ⟨-, -, -, -, -, -, -, -, -, e0, e1, e2, -⟩ := block_indices t
  unfold iblk2
  rw [View.read_apply]
  show V c main_v9 _ = V c main_v9 i
  congr 1
  funext a
  apply Fin.ext
  match a with
  | ⟨0, _⟩ => show win2_4.index t 0 * 1 + 1 * (y 0).val = (i 0).val; rw [e0, h0]; omega
  | ⟨1, _⟩ => show win2_4.index t 1 * 1 + 1 * (y 1).val = (i 1).val; rw [e1, h1]; omega
  | ⟨2, _⟩ => show win2_4.index t 2 * 16 + 1 * (y 2).val = (i 2).val; rw [e2, h2]; omega

/-- The array the region's first output ends holding: A · T + b₂ of the three arrays it finds. -/
abbrev secondLayer (c : Dev nD) : Arr2 10000 128 :=
  layerTwo (V c main_arg1 : Arr2 10000 10000) (V c main_v2 : Arr2 10000 128) (rowOf (V c main_v10 : Arr2 1 128))

/-- The array the region's second output ends holding: every row of A · T + b₂ through the head of its half. -/
abbrev scores (c : Dev nD) : Arr2 10000 16 :=
  scoresOf (secondLayer V c) (V c main_v5 : Stack2 128 16) (V c main_v9 : Stack2 1 16)

/-- One entry of the first store: with the block's rows being rows r of A, entry (p, u) is entry (r, u) of A · T + b₂. -/
theorem features_entry (x0 : FVec Ideal S200x10000 .f32) (A : Arr2 10000 10000) (T : Arr2 10000 128) (B : Arr2 1 128)
    (p : Fin 200) (u : Fin 128) (r : Fin 10000) (hx0 : ∀ k : Fin 10000, x0 (ix2 p k) = A (ix2 r k)) :
    k2_pay1 (F := Ideal) x0 T B (ix2 p u) = layerTwo A T (rowOf B) (ix2 r u) := by
  rw [Blocks.layerTwo_block_apply]
  unfold layerTwo
  rw [addRow_apply, prod_apply, rowOf_apply]
  exact congrArg (· + B (ix2 (0 : Fin 1) u)) (Finset.sum_congr rfl fun k _ => by rw [hx0 k])

/-- One entry of the second store: the row just computed through the slab the point holds. -/
theorem scores_entry (x0 : FVec Ideal S200x10000 .f32) (x3 : FVec Ideal S1x128x16 .f32) (x4 : FVec Ideal S1x1x16 .f32)
    (A : Arr2 10000 10000) (T : Arr2 10000 128) (B : Arr2 1 128) (wst : Stack2 128 16) (bst : Stack2 1 16)
    (p : Fin 200) (e : Fin 16) (r : Fin 10000) (h : Fin 2) (hh : h.val = r.val / 5000)
    (hx0 : ∀ k : Fin 10000, x0 (ix2 p k) = A (ix2 r k))
    (hx3 : ∀ j : Fin 128, x3 (ix3 (0 : Fin 1) j e) = wst (ix3 h j e))
    (hx4 : x4 (ix3 (0 : Fin 1) (0 : Fin 1) e) = bst (ix3 h (0 : Fin 1) e)) :
    k2_pay2 (F := Ideal) x0 T B x3 x4 (ix2 p e) = scoresOf (layerTwo A T (rowOf B)) wst bst (ix2 r e) := by
  rw [Blocks.head_block_apply, scoresOf_apply _ wst bst r e h hh, hx4]
  refine congrArg (· + bst (ix3 h (0 : Fin 1) e)) (Finset.sum_congr rfl fun j _ => ?_)
  rw [features_entry x0 A T B p j r hx0, hx3 j]

/-- What point t writes back to the first output is block t of A · T + b₂. -/
theorem flushed_features (c : Dev nD) (t : Fin cfg2.N) :
    (dat2 V c).flushed 5 t = ((cfg2.win 5).blk t).view.read (Elt Ideal) (secondLayer V c) := by
  show (cfg2.win 5).cut (grid2.coords t) ((dat2 V c).after 5 t) = _
  rw [after2_5]
  unfold out2_5
  rw [View.canon_unit_zero zero_offsets]
  simp only [View.ld_unit_zero (S := S200x10000) zero_offsets, View.ld_unit_zero (S := S10000x128) zero_offsets,
    View.ld_unit_zero (S := S1x128) zero_offsets]
  rw [t_block V c t, bias_block V c t]
  obtain ⟨-, -, -, -, -, -, -, -, -, -, -, -, e0, e1, -⟩ := block_indices t
  have ht : t.val < 50 := lt_of_lt_of_eq t.isLt (show cfg2.N = 50 from N_2)
  funext y
  have hp : (y 0).val < 200 := (y 0).isLt
  have hu : (y 1).val < 128 := (y 1).isLt
  show k2_pay1 (F := Ideal) (iblk2 V c 0 t) (V c main_v2) (V c main_v10) y
      = secondLayer V c (((cfg2.win 5).blk t).view.emb y)
  have hy : (y : S200x128.Idx) = ix2 (⟨(y 0).val, hp⟩ : Fin 200) (⟨(y 1).val, hu⟩ : Fin 128) := eq_ix2 y
  have hemb : ((cfg2.win 5).blk t).view.emb y
      = ix2 (⟨200 * t.val + (y 0).val, by omega⟩ : Fin 10000) (⟨(y 1).val, hu⟩ : Fin 128) := by
    funext a
    apply Fin.ext
    match a with
    | ⟨0, _⟩ => show win2_5.index t 0 * 200 + 1 * (y 0).val = 200 * t.val + (y 0).val; rw [e0]; omega
    | ⟨1, _⟩ => show win2_5.index t 1 * 128 + 1 * (y 1).val = (y 1).val; rw [e1]; omega
  refine (congrArg (k2_pay1 (F := Ideal) (iblk2 V c 0 t) (V c main_v2) (V c main_v10)) hy).trans ?_
  rw [hemb]
  exact features_entry (iblk2 V c 0 t) (V c main_arg1) (V c main_v2) (V c main_v10)
    ⟨(y 0).val, hp⟩ ⟨(y 1).val, hu⟩ ⟨200 * t.val + (y 0).val, by omega⟩
    (fun k => adj_block_apply V c t _ _ rfl rfl)

/-- What point t writes back to the second output is block t of the rows through the heads of their halves. -/
theorem flushed_scores (c : Dev nD) (t : Fin cfg2.N) :
    (dat2 V c).flushed 6 t = ((cfg2.win 6).blk t).view.read (Elt Ideal) (scores V c) := by
  show (cfg2.win 6).cut (grid2.coords t) ((dat2 V c).after 6 t) = _
  rw [after2_6]
  unfold out2_6
  rw [View.canon_unit_zero zero_offsets]
  simp only [View.ld_unit_zero (S := S200x10000) zero_offsets, View.ld_unit_zero (S := S10000x128) zero_offsets,
    View.ld_unit_zero (S := S1x128) zero_offsets, View.ld_unit_zero (S := S1x128x16) zero_offsets3,
    View.ld_unit_zero (S := S1x1x16) zero_offsets3]
  rw [t_block V c t, bias_block V c t]
  obtain ⟨-, -, -, -, -, -, -, -, -, -, -, -, -, -, e0, e1⟩ := block_indices t
  have ht : t.val < 50 := lt_of_lt_of_eq t.isLt (show cfg2.N = 50 from N_2)
  funext y
  have hp : (y 0).val < 200 := (y 0).isLt
  have hu : (y 1).val < 16 := (y 1).isLt
  show k2_pay2 (F := Ideal) (iblk2 V c 0 t) (V c main_v2) (V c main_v10) (iblk2 V c 3 t) (iblk2 V c 4 t) y
      = scores V c (((cfg2.win 6).blk t).view.emb y)
  have hy : (y : S200x16.Idx) = ix2 (⟨(y 0).val, hp⟩ : Fin 200) (⟨(y 1).val, hu⟩ : Fin 16) := eq_ix2 y
  have hemb : ((cfg2.win 6).blk t).view.emb y
      = ix2 (⟨200 * t.val + (y 0).val, by omega⟩ : Fin 10000) (⟨(y 1).val, hu⟩ : Fin 16) := by
    funext a
    apply Fin.ext
    match a with
    | ⟨0, _⟩ => show win2_6.index t 0 * 200 + 1 * (y 0).val = 200 * t.val + (y 0).val; rw [e0]; omega
    | ⟨1, _⟩ => show win2_6.index t 1 * 16 + 1 * (y 1).val = (y 1).val; rw [e1]; omega
  refine (congrArg (k2_pay2 (F := Ideal) (iblk2 V c 0 t) (V c main_v2) (V c main_v10) (iblk2 V c 3 t) (iblk2 V c 4 t)) hy).trans ?_
  rw [hemb]
  exact scores_entry (iblk2 V c 0 t) (iblk2 V c 3 t) (iblk2 V c 4 t) (V c main_arg1) (V c main_v2) (V c main_v10)
    (V c main_v5) (V c main_v9) ⟨(y 0).val, hp⟩ ⟨(y 1).val, hu⟩ ⟨200 * t.val + (y 0).val, by omega⟩
    ⟨t.val / 25, by omega⟩ (by show t.val / 25 = (200 * t.val + (y 0).val) / 5000; omega)
    (fun k => adj_block_apply V c t _ _ rfl rfl)
    (fun j => weights_block_apply V c t _ _ (by show t.val / 25 = t.val / 25 + 0; omega) rfl rfl)
    (headBias_block_apply V c t _ _ (by show t.val / 25 = t.val / 25 + 0; omega) rfl rfl)

/-- An index of the first output is in point t's block iff its row is one of the block's 200 rows. -/
theorem mem_block_features (t : Fin cfg2.N) (i : S10000x128.Idx) :
    i ∈ ((cfg2.win 5).blk t).view.set
      ↔ ∀ a : Fin 2, win2_5.index t a * S200x128.size a ≤ (i a).val
          ∧ (i a).val < win2_5.index t a * S200x128.size a + S200x128.size a := by
  show i ∈ ((View.whole main_v11_0).slice (win2_5.rect t)).set ↔ _
  rw [View.set_slice_whole, Rect.mem_set_unit]
  exact Iff.rfl

/-- An index of the second output is in point t's block iff its row is one of the block's 200 rows. -/
theorem mem_block_scores (t : Fin cfg2.N) (i : S10000x16.Idx) :
    i ∈ ((cfg2.win 6).blk t).view.set
      ↔ ∀ a : Fin 2, win2_6.index t a * S200x16.size a ≤ (i a).val
          ∧ (i a).val < win2_6.index t a * S200x16.size a + S200x16.size a := by
  show i ∈ ((View.whole main_v11_1).slice (win2_6.rect t)).set ↔ _
  rw [View.set_slice_whole, Rect.mem_set_unit]
  exact Iff.rfl

/-- Row r of the first output lies in the block of point r / 200. -/
theorem features_covered (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ : ∃ t : Fin cfg2.N, t.val = (i 0).val / 200 :=
    ⟨⟨(i 0).val / 200, by rw [show cfg2.N = 50 from N_2]; omega⟩, rfl⟩
  obtain ⟨-, -, -, -, -, -, -, -, -, -, -, -, e0, e1, -⟩ := block_indices t
  refine ⟨t, flush2_5 t, ?_⟩
  rw [mem_block_features]
  intro a
  match a with
  | ⟨0, _⟩ =>
    show win2_5.index t 0 * 200 ≤ (i 0).val ∧ (i 0).val < win2_5.index t 0 * 200 + 200
    rw [e0, ht]; omega
  | ⟨1, _⟩ =>
    show win2_5.index t 1 * 128 ≤ (i 1).val ∧ (i 1).val < win2_5.index t 1 * 128 + 128
    rw [e1]; omega

/-- Row r of the second output lies in the block of point r / 200. -/
theorem scores_covered (i : S10000x16.Idx) :
    ∃ t : Fin cfg2.N, (cfg2.win 6).flush t = true ∧ i ∈ ((cfg2.win 6).blk t).view.set := by
  have hi0 : (i 0).val < 10000 := (i 0).isLt
  have hi1 : (i 1).val < 16 := (i 1).isLt
  obtain ⟨t, ht⟩ : ∃ t : Fin cfg2.N, t.val = (i 0).val / 200 :=
    ⟨⟨(i 0).val / 200, by rw [show cfg2.N = 50 from N_2]; omega⟩, rfl⟩
  obtain ⟨-, -, -, -, -, -, -, -, -, -, -, -, -, -, e0, e1⟩ := block_indices t
  refine ⟨t, flush2_6 t, ?_⟩
  rw [mem_block_scores]
  intro a
  match a with
  | ⟨0, _⟩ =>
    show win2_6.index t 0 * 200 ≤ (i 0).val ∧ (i 0).val < win2_6.index t 0 * 200 + 200
    rw [e0, ht]; omega
  | ⟨1, _⟩ =>
    show win2_6.index t 1 * 16 ≤ (i 1).val ∧ (i 1).val < win2_6.index t 1 * 16 + 16
    rw [e1]; omega

/-- The first output after the region: A · T + b₂ of the arrays the region finds. -/
theorem features_array (c : Dev nD) : (dat2 V c).arrAt 5 cfg2.N = secondLayer V c :=
  (dat2 V c).arrAt_eq_of_cover 5 (secondLayer V c) (fun t _ => flushed_features V c t) features_covered

/-- The second output after the region: every row of A · T + b₂ through the head of its half. -/
theorem scores_array (c : Dev nD) : (dat2 V c).arrAt 6 cfg2.N = scores V c :=
  (dat2 V c).arrAt_eq_of_cover 6 (scores V c) (fun t _ => flushed_scores V c t) scores_covered

end Cert.KernelIdeal.SecondLayerRegion

end
-- ==== Proof.StackedHeads.lean ====
/-
  Two heads' weights and biases stacked along a new leading axis, read one entry at a time.

  A k × n array of weights becomes a 1 × k × n slab (every entry kept, the new coordinate 0); two slabs set one after the
  other along the leading axis make a 2 × k × n stack.  Slab h of the stack is head h's array: at (h, j, e) the stack holds
  the first head's entry (j, e) when h = 0 and the second head's entry (j, e) when h = 1.  The two bias rows are stacked
  the same way into a 2 × n array, which is then recast as 2 × 1 × n; the entry at (h, 0, e) of the recast array and the
  entry at (h, e) of the stack sit at the same row-major position h · n + e.  A single bias row of n entries recast as
  1 × n holds entry u at (0, u).
-/
import proofs.«145531_g12206297055601_cont_week2_601_2_alg».proof.KernelIdeal
import proofs.«145531_g12206297055601_cont_week2_601_2_alg».proof.Proof.GraphConv
import Idealize.ShloMosaic.Lib.ValueIdx
import Idealize.ShloMosaic.Lib.ValueLayout
import Idealize.ShloMosaic.Lib.Pipeline.Value

noncomputable section

namespace Cert.KernelIdeal.Stacked

open Cert.KernelIdeal Cert.KernelIdeal.Facts₀ Cert.GraphConv
open Idealize.ShloMosaic Idealize.ShloMosaic.ValueIdx

variable [Facts₀]

/-- A row of 128 entries recast as 1 × 128 holds entry u at (0, u). -/
theorem biasRow_read (b : Arr1 128) (u : Fin 128) :
    shapeCast S1x128 b shapeCasts_S128_S1x128 (ix2 (0 : Fin 1) u) = b (ix1 u) :=
  shapeCast_a_1a_apply b shapeCasts_S128_S1x128 0 u

/-- A 128 × 16 array as a 1 × 128 × 16 slab holds entry (j, e) at (u, j, e): neither extent is one, so neither
    coordinate is collapsed. -/
theorem slab_read (w : Arr2 128 16) (u : Fin 1) (j : Fin 128) (e : Fin 16) :
    broadcastInDim S1x128x16 ![1, 2] bcast_S128x16_S1x128x16_1_2 w (ix3 u j e) = w (ix2 j e) :=
  broadcastInDim_apply _ bcast_S128x16_S1x128x16_1_2 w (ix3 u j e) (ix2 j e) (fun a => match a with
    | ⟨0, _⟩ => by show j.val = if (128 : Nat) = 1 then 0 else j.val; rw [if_neg (by decide)]
    | ⟨1, _⟩ => by show e.val = if (16 : Nat) = 1 then 0 else e.val; rw [if_neg (by decide)])

/-- Slab h of the stacked weights is head h's weights. -/
theorem heads_read (w1 w2 : Arr2 128 16) (h : Fin 2) (j : Fin 128) (e : Fin 16) :
    concatenate S2x128x16 0 [⟨S1x128x16, broadcastInDim S1x128x16 ![1, 2] bcast_S128x16_S1x128x16_1_2 w1⟩,
        ⟨S1x128x16, broadcastInDim S1x128x16 ![1, 2] bcast_S128x16_S1x128x16_1_2 w2⟩]
      concatenates_S1x128x16_S1x128x16_S2x128x16_d0 (ix3 h j e)
      = if h.val = 0 then w1 (ix2 j e) else w2 (ix2 j e) := by
  by_cases h0 : h.val = 0
  · -- the leading coordinate falls in the first slab, at its only row
    rw [if_pos h0]
    refine (concatenate_pair_apply_left (0 : Fin S2x128x16.rank) _ _ concatenates_S1x128x16_S1x128x16_S2x128x16_d0
      (ix3 h j e) rfl (ix3 (0 : Fin 1) j e) (fun b => ?_)).trans (slab_read w1 0 j e)
    match b with
    | ⟨0, _⟩ => exact h0.symm
    | ⟨1, _⟩ => rfl
    | ⟨2, _⟩ => rfl
  · -- the leading coordinate is 1: past the first slab's one row, at the second slab's only row
    rw [if_neg h0]
    have h1 : h.val = 1 := by have := h.isLt; omega
    refine (concatenate_pair_apply_right (0 : Fin S2x128x16.rank) _ _ concatenates_S1x128x16_S1x128x16_S2x128x16_d0
      (ix3 h j e) rfl rfl (ix3 (0 : Fin 1) j e) (fun b hb => ?_) ?_).trans (slab_read w2 0 j e)
    · match b, hb with
      | ⟨0, _⟩, hb => exact absurd rfl hb
      | ⟨1, _⟩, _ => rfl
      | ⟨2, _⟩, _ => rfl
    · show 0 + 1 = h.val
      omega

/-- A row of 16 entries as a 1 × 16 slab holds entry e at (u, e). -/
theorem biasSlab_read (b : Arr1 16) (u : Fin 1) (e : Fin 16) :
    broadcastInDim S1x16 ![1] bcast_S16_S1x16_1 b (ix2 u e) = b (ix1 e) :=
  broadcastInDim_apply _ bcast_S16_S1x16_1 b (ix2 u e) (ix1 e) (fun a => match a with
    | ⟨0, _⟩ => by show e.val = if (16 : Nat) = 1 then 0 else e.val; rw [if_neg (by decide)])

/-- Row h of the stacked bias rows is head h's bias row. -/
theorem biasStack_read (b1 b2 : Arr1 16) (h : Fin 2) (e : Fin 16) :
    concatenate S2x16 0 [⟨S1x16, broadcastInDim S1x16 ![1] bcast_S16_S1x16_1 b1⟩,
        ⟨S1x16, broadcastInDim S1x16 ![1] bcast_S16_S1x16_1 b2⟩] concatenates_S1x16_S1x16_S2x16_d0 (ix2 h e)
      = if h.val = 0 then b1 (ix1 e) else b2 (ix1 e) := by
  by_cases h0 : h.val = 0
  · rw [if_pos h0]
    refine (concatenate_pair_apply_left (0 : Fin S2x16.rank) _ _ concatenates_S1x16_S1x16_S2x16_d0
      (ix2 h e) rfl (ix2 (0 : Fin 1) e) (fun b => ?_)).trans (biasSlab_read b1 0 e)
    match b with
    | ⟨0, _⟩ => exact h0.symm
    | ⟨1, _⟩ => rfl
  · rw [if_neg h0]
    have h1 : h.val = 1 := by have := h.isLt; omega
    refine (concatenate_pair_apply_right (0 : Fin S2x16.rank) _ _ concatenates_S1x16_S1x16_S2x16_d0
      (ix2 h e) rfl rfl (ix2 (0 : Fin 1) e) (fun b hb => ?_) ?_).trans (biasSlab_read b2 0 e)
    · match b, hb with
      | ⟨0, _⟩, hb => exact absurd rfl hb
      | ⟨1, _⟩, _ => rfl
    · show 0 + 1 = h.val
      omega

/-- The stacked bias rows recast as 2 × 1 × 16: slab h is head h's bias row, since (h, 0, e) and (h, e) are both at
    row-major position h · 16 + e. -/
theorem headBias_read (b1 b2 : Arr1 16) (h : Fin 2) (e : Fin 16) :
    shapeCast S2x1x16 (concatenate S2x16 0 [⟨S1x16, broadcastInDim S1x16 ![1] bcast_S16_S1x16_1 b1⟩,
        ⟨S1x16, broadcastInDim S1x16 ![1] bcast_S16_S1x16_1 b2⟩] concatenates_S1x16_S1x16_S2x16_d0)
      shapeCasts_S2x16_S2x1x16 (ix3 h (0 : Fin 1) e)
      = if h.val = 0 then b1 (ix1 e) else b2 (ix1 e) := by
  refine (shapeCast_apply _ shapeCasts_S2x16_S2x1x16 (ix3 h (0 : Fin 1) e) (ix2 h e) ?_).trans (biasStack_read b1 b2 h e)
  rw [Shape.rowMajor_val_two, Shape.rowMajor_val_three]
  show h.val * 16 + e.val = (h.val * 1 + 0) * 16 + e.val
  omega

end Cert.KernelIdeal.Stacked

end
-- ==== Proof.KernelBoundaries.lean ====
/-
  What each of the three pipelined regions finds when it is entered, and what the program returns, as whole arrays.

  The program's buffers are followed from the launch memory through the run: a stretch of host operations rewrites the
  buffers its operations write and leaves every other buffer alone; a region leaves each of its windows' arrays at what
  its write-backs leave (an input window's array unchanged) and every other buffer alone.  Reading a buffer at a
  boundary is therefore a walk back through the segments before it, one step per segment, until the step at which the
  buffer was written (a host operation's result, or a region's output array) or the launch memory is reached.

  Region 0 finds the features X and the weights W₁ as launched.  Region 1 finds the adjacency A and the weights W₂ as
  launched, region 0's output array, and the bias row b₁ recast as 1 × 128.  Region 2 finds A as launched, region 1's
  output array, the bias row b₂ recast as 1 × 128, the two heads' weights stacked along a new leading axis and the two
  heads' bias rows stacked and recast as 2 × 1 × 16.  The program returns region 2's first output array and the two
  halves of the rows of its second.
-/
import proofs.«145531_g12206297055601_cont_week2_601_2_alg».proof.Proof.Gen.KernelIdeal.Frame
import Idealize.ShloMosaic.Lib.StableHlo.Run
import Idealize.ShloMosaic.PureOps.Ideal

noncomputable section

namespace Cert.KernelIdeal.Boundaries

open Cert.KernelIdeal Cert.KernelIdeal.Gen
open Idealize.ShloMosaic Idealize.ShloMosaic.TcCoe
open Idealize.SL.Sem

/-! ## A stretch of host operations keeps every buffer it does not write -/

/-- The first stretch writes only the recast bias row b₁. -/
theorem keep1 (V : Valuation τ sig (Elt Ideal)) (b : Ref sig .tc) (hb : b ≠ main_v1) :
    StableHlo.after (hostOps1 (F := Ideal)) V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The second stretch writes the two weight slabs, their stack, the two bias slabs, their stack, its recast, and the
    recast bias row b₂. -/
theorem keep2 (V : Valuation τ sig (Elt Ideal)) (b : Ref sig .tc)
    (hb : b ≠ main_v3 ∧ b ≠ main_v4 ∧ b ≠ main_v5 ∧ b ≠ main_v6 ∧ b ≠ main_v7 ∧ b ≠ main_v8 ∧ b ≠ main_v9 ∧ b ≠ main_v10) :
    StableHlo.after (hostOps2 (F := Ideal)) V (Proc.devRef .tc b) = V (Proc.devRef .tc b) :=
  StableHlo.after_of_forall_not_mem (b := Proc.devRef .tc b) _ _ (List.forall_iff_forall_mem.mp (by
    obtain ⟨h3, h4, h5, h6, h7, h8, h9, h10⟩ := hb
    simp only [hostOps2, List.Forall, StableHlo.unary_writes, StableHlo.binary_writes, StableHlo.reshape_writes,
      Finset.mem_singleton]
    exact ⟨StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9, StableHlo.devRef_ne_of_ne h10⟩))

/-- The third stretch writes only the two halves of the scores. -/
theorem keep3 (V : Valuation τ sig (Elt Ideal)) (b : Ref sig .tc) (hb : b ≠ main_v12 ∧ b ≠ main_v13) :
    StableHlo.after (hostOps3 (F := Ideal)) V (Proc.devRef .tc b) = V (Proc.devRef .tc b) :=
  StableHlo.after_of_forall_not_mem (b := Proc.devRef .tc b) _ _ (List.forall_iff_forall_mem.mp (by
    obtain ⟨h12, h13⟩ := hb
    simp only [hostOps3, List.Forall, StableHlo.unary_writes, Finset.mem_singleton]
    exact ⟨StableHlo.devRef_ne_of_ne h12, StableHlo.devRef_ne_of_ne h13⟩))

variable (m : (ℓ : Loc nD τ sig) → Buf (Elt Ideal) ℓ) (ρ : Dev nD → PrngReg) (c : Dev nD)

/-! ## Arguments no region reads through a window before the boundary: as launched -/

/-- At region 0's exit, a buffer that is none of its windows' arrays is as launched. -/
theorem at1_of_ne (b : Ref sig .tc) (h0 : ∀ w, Pipeline.arrRef spec0 w ≠ b) :
    W1 m ρ c (Proc.devRef .tc b) = m ((c : Thread nD τ).loc b) :=
  calc W1 m ρ c (Proc.devRef .tc b)
    _ = W0 m ρ c (Proc.devRef .tc b) := W1_of_ne m ρ c b h0
    _ = m ((c : Thread nD τ).loc b) := rfl

/-- At region 1's exit, a buffer that is no array of region 0 or 1 and not the recast b₁ is as launched. -/
theorem at3_of_ne (b : Ref sig .tc) (h0 : ∀ w, Pipeline.arrRef spec0 w ≠ b) (h1 : ∀ w, Pipeline.arrRef spec1 w ≠ b)
    (hk : b ≠ main_v1) : W3 m ρ c (Proc.devRef .tc b) = m ((c : Thread nD τ).loc b) :=
  calc W3 m ρ c (Proc.devRef .tc b)
    _ = W2 m ρ c (Proc.devRef .tc b) := W3_of_ne m ρ c b h1
    _ = W1 m ρ c (Proc.devRef .tc b) := keep1 _ b hk
    _ = m ((c : Thread nD τ).loc b) := at1_of_ne m ρ c b h0

theorem arg3_at1 : W1 m ρ c (Proc.devRef .tc main_arg3) = m ((c : Thread nD τ).loc main_arg3) :=
  at1_of_ne m ρ c main_arg3 (by decide)
theorem arg5_at3 : W3 m ρ c (Proc.devRef .tc main_arg5) = m ((c : Thread nD τ).loc main_arg5) :=
  at3_of_ne m ρ c main_arg5 (by decide) (by decide) (by decide)
theorem arg6_at3 : W3 m ρ c (Proc.devRef .tc main_arg6) = m ((c : Thread nD τ).loc main_arg6) :=
  at3_of_ne m ρ c main_arg6 (by decide) (by decide) (by decide)
theorem arg7_at3 : W3 m ρ c (Proc.devRef .tc main_arg7) = m ((c : Thread nD τ).loc main_arg7) :=
  at3_of_ne m ρ c main_arg7 (by decide) (by decide) (by decide)
theorem arg8_at3 : W3 m ρ c (Proc.devRef .tc main_arg8) = m ((c : Thread nD τ).loc main_arg8) :=
  at3_of_ne m ρ c main_arg8 (by decide) (by decide) (by decide)
theorem arg9_at3 : W3 m ρ c (Proc.devRef .tc main_arg9) = m ((c : Thread nD τ).loc main_arg9) :=
  at3_of_ne m ρ c main_arg9 (by decide) (by decide) (by decide)

/-- Region 2's second output array, at its exit. -/
theorem out1_at5 : W5 m ρ c (Proc.devRef .tc main_v11_1) = (dat2 (V4 m ρ) c).arrAt 6 cfg2.N := W5_arr m ρ c 6

/-! ## What region 0 finds -/

theorem entry0_x : V0 m ρ c main_arg0 = m ((c : Thread nD τ).loc main_arg0) := rfl
theorem entry0_w1 : V0 m ρ c main_arg2 = m ((c : Thread nD τ).loc main_arg2) := rfl

/-! ## What region 1 finds -/

theorem entry1_adj : V2 m ρ c main_arg1 = m ((c : Thread nD τ).loc main_arg1) :=
  calc V2 m ρ c main_arg1
    _ = W1 m ρ c (Proc.devRef .tc main_arg1) := keep1 _ main_arg1 (by decide)
    _ = m ((c : Thread nD τ).loc main_arg1) := at1_of_ne m ρ c main_arg1 (by decide)

theorem entry1_w2 : V2 m ρ c main_arg4 = m ((c : Thread nD τ).loc main_arg4) :=
  calc V2 m ρ c main_arg4
    _ = W1 m ρ c (Proc.devRef .tc main_arg4) := keep1 _ main_arg4 (by decide)
    _ = m ((c : Thread nD τ).loc main_arg4) := at1_of_ne m ρ c main_arg4 (by decide)

/-- The support X · W₁ is region 0's output array. -/
theorem entry1_support : V2 m ρ c main_v0 = (dat0 (V0 m ρ) c).arrAt 2 cfg0.N :=
  calc V2 m ρ c main_v0
    _ = W1 m ρ c (Proc.devRef .tc main_v0) := keep1 _ main_v0 (by decide)
    _ = (dat0 (V0 m ρ) c).arrAt 2 cfg0.N := W1_arr m ρ c 2

/-- The bias row b₁, recast as 1 × 128 by the first stretch. -/
theorem entry1_bias :
    V2 m ρ c main_v1 = shapeCast S1x128 (m ((c : Thread nD τ).loc main_arg3)) shapeCasts_S128_S1x128 := by
  have e : V2 m ρ c main_v1
      = shapeCast S1x128 (W1 m ρ c (Proc.devRef .tc main_arg3)) shapeCasts_S128_S1x128 := by
    show StableHlo.after hostOps1 _ (Proc.devRef .tc main_v1) = _
    after_results
    rfl
  rw [arg3_at1 m ρ c] at e
  exact e

/-! ## What region 2 finds -/

theorem entry2_adj : V4 m ρ c main_arg1 = m ((c : Thread nD τ).loc main_arg1) :=
  calc V4 m ρ c main_arg1
    _ = W3 m ρ c (Proc.devRef .tc main_arg1) := keep2 _ main_arg1 (by decide)
    _ = W2 m ρ c (Proc.devRef .tc main_arg1) :=
        (W3_arr m ρ c 0).trans (((dat1 (V2 m ρ) c).arrAt_in 0 rfl _).trans (A_eq1 (V2 m ρ) c 0))
    _ = m ((c : Thread nD τ).loc main_arg1) := entry1_adj m ρ c

/-- Region 1's output array. -/
theorem entry2_t : V4 m ρ c main_v2 = (dat1 (V2 m ρ) c).arrAt 4 cfg1.N :=
  calc V4 m ρ c main_v2
    _ = W3 m ρ c (Proc.devRef .tc main_v2) := keep2 _ main_v2 (by decide)
    _ = (dat1 (V2 m ρ) c).arrAt 4 cfg1.N := W3_arr m ρ c 4

/-- The bias row b₂, recast as 1 × 128 by the second stretch. -/
theorem entry2_bias :
    V4 m ρ c main_v10 = shapeCast S1x128 (m ((c : Thread nD τ).loc main_arg5)) shapeCasts_S128_S1x128 := by
  have e : V4 m ρ c main_v10
      = shapeCast S1x128 (W3 m ρ c (Proc.devRef .tc main_arg5)) shapeCasts_S128_S1x128 := by
    show StableHlo.after hostOps2 _ (Proc.devRef .tc main_v10) = _
    after_results
    rfl
  rw [arg5_at3 m ρ c] at e
  exact e

/-- The two heads' weights, each as a 1 × 128 × 16 slab, stacked along the new leading axis. -/
theorem entry2_heads :
    V4 m ρ c main_v5 = concatenate S2x128x16 0
      [⟨S1x128x16, broadcastInDim S1x128x16 ![1, 2] bcast_S128x16_S1x128x16_1_2 (m ((c : Thread nD τ).loc main_arg6))⟩,
       ⟨S1x128x16, broadcastInDim S1x128x16 ![1, 2] bcast_S128x16_S1x128x16_1_2 (m ((c : Thread nD τ).loc main_arg8))⟩]
      concatenates_S1x128x16_S1x128x16_S2x128x16_d0 := by
  have e : V4 m ρ c main_v5 = concatenate S2x128x16 0
      [⟨S1x128x16, broadcastInDim S1x128x16 ![1, 2] bcast_S128x16_S1x128x16_1_2 (W3 m ρ c (Proc.devRef .tc main_arg6))⟩,
       ⟨S1x128x16, broadcastInDim S1x128x16 ![1, 2] bcast_S128x16_S1x128x16_1_2 (W3 m ρ c (Proc.devRef .tc main_arg8))⟩]
      concatenates_S1x128x16_S1x128x16_S2x128x16_d0 := by
    show StableHlo.after hostOps2 _ (Proc.devRef .tc main_v5) = _
    after_results
  rw [arg6_at3 m ρ c, arg8_at3 m ρ c] at e
  exact e

/-- The two heads' bias rows, each as a 1 × 16 slab, stacked and recast as 2 × 1 × 16. -/
theorem entry2_headBias :
    V4 m ρ c main_v9 = shapeCast S2x1x16 (concatenate S2x16 0
      [⟨S1x16, broadcastInDim S1x16 ![1] bcast_S16_S1x16_1 (m ((c : Thread nD τ).loc main_arg7))⟩,
       ⟨S1x16, broadcastInDim S1x16 ![1] bcast_S16_S1x16_1 (m ((c : Thread nD τ).loc main_arg9))⟩]
      concatenates_S1x16_S1x16_S2x16_d0) shapeCasts_S2x16_S2x1x16 := by
  have e : V4 m ρ c main_v9 = shapeCast S2x1x16 (concatenate S2x16 0
      [⟨S1x16, broadcastInDim S1x16 ![1] bcast_S16_S1x16_1 (W3 m ρ c (Proc.devRef .tc main_arg7))⟩,
       ⟨S1x16, broadcastInDim S1x16 ![1] bcast_S16_S1x16_1 (W3 m ρ c (Proc.devRef .tc main_arg9))⟩]
      concatenates_S1x16_S1x16_S2x16_d0) shapeCasts_S2x16_S2x1x16 := by
    show StableHlo.after hostOps2 _ (Proc.devRef .tc main_v9) = _
    after_results
    rfl
  rw [arg7_at3 m ρ c, arg9_at3 m ρ c] at e
  exact e

/-! ## What the program returns -/

/-- The node features: region 2's first output array. -/
theorem exit_features : W6 m ρ c (Proc.devRef .tc main_v11_0) = (dat2 (V4 m ρ) c).arrAt 5 cfg2.N :=
  calc W6 m ρ c (Proc.devRef .tc main_v11_0)
    _ = W5 m ρ c (Proc.devRef .tc main_v11_0) := keep3 _ main_v11_0 (by decide)
    _ = (dat2 (V4 m ρ) c).arrAt 5 cfg2.N := W5_arr m ρ c 5

/-- The text scores: the first 5000 rows of region 2's second output array. -/
theorem exit_text :
    W6 m ρ c (Proc.devRef .tc main_v12)
      = extractStridedSlice S5000x16 ![0, 0] ((dat2 (V4 m ρ) c).arrAt 6 cfg2.N) slices_S10000x16_S5000x16_0_0 := by
  have e : W6 m ρ c (Proc.devRef .tc main_v12)
      = extractStridedSlice S5000x16 ![0, 0] (W5 m ρ c (Proc.devRef .tc main_v11_1)) slices_S10000x16_S5000x16_0_0 := by
    show StableHlo.after hostOps3 _ (Proc.devRef .tc main_v12) = _
    after_results
  rw [out1_at5 m ρ c] at e
  exact e

/-- The image scores: the last 5000 rows of region 2's second output array. -/
theorem exit_image :
    W6 m ρ c (Proc.devRef .tc main_v13)
      = extractStridedSlice S5000x16 ![5000, 0] ((dat2 (V4 m ρ) c).arrAt 6 cfg2.N) slices_S10000x16_S5000x16_5000_0 := by
  have e : W6 m ρ c (Proc.devRef .tc main_v13)
      = extractStridedSlice S5000x16 ![5000, 0] (W5 m ρ c (Proc.devRef .tc main_v11_1)) slices_S10000x16_S5000x16_5000_0 := by
    show StableHlo.after hostOps3 _ (Proc.devRef .tc main_v13) = _
    after_results
  rw [out1_at5 m ρ c] at e
  exact e

end Cert.KernelIdeal.Boundaries

end
-- ==== Proof.ReturnedValues.lean ====
/-
  What the program returns, as functions of the launch memory.  Going back from the return: the first result is the
  second region's first output array, A · T + b₂ of what that region finds; what it finds as T is the first region's
  output, max(A · S + b₁, 0) · W₂ of what that region finds; and S is the support region's output X · W₁.  The bias
  rows reach the regions recast as 1 × 128 arrays, and the one row of such an array is the row that was cast.  The
  second and third results are the first and the last 5000 rows of the second region's second output — every row of
  the node features through the head of its half, the heads held stacked — and on the rows of one half that is that
  half's head, whose weights and bias row are one slab of the stack.
-/
import proofs.«145531_g12206297055601_cont_week2_601_2_alg».proof.Proof.SupportRegion
import proofs.«145531_g12206297055601_cont_week2_601_2_alg».proof.Proof.FirstLayerRegion
import proofs.«145531_g12206297055601_cont_week2_601_2_alg».proof.Proof.SecondLayerRegion
import proofs.«145531_g12206297055601_cont_week2_601_2_alg».proof.Proof.StackedHeads
import proofs.«145531_g12206297055601_cont_week2_601_2_alg».proof.Proof.KernelBoundaries
import Idealize.ShloMosaic.Lib.ValueLayout

noncomputable section

open scoped BigOperators

namespace Cert.KernelIdeal.Returned

open Cert.KernelIdeal Cert.KernelIdeal.Gen Cert.GraphConv
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A length-128 row cast to a 1 × 128 array and read back as its one row is the row. -/
theorem rowOf_cast (b : Arr1 128) : rowOf (shapeCast S1x128 b shapeCasts_S128_S1x128 : Arr2 1 128) = b := by
  funext j
  obtain ⟨u, rfl⟩ : ∃ u : Fin 128, j = ix1 u := ⟨j 0, eq_ix1 j⟩
  rw [rowOf_apply]
  exact Stacked.biasRow_read b u

/-- The launch arrays, typed as the specification's arrays. -/
abbrev X : Arr2 10000 128 := m ((c : Thread nD τ).loc main_arg0)
abbrev A : Arr2 10000 10000 := m ((c : Thread nD τ).loc main_arg1)
abbrev W₁ : Arr2 128 128 := m ((c : Thread nD τ).loc main_arg2)
abbrev b₁ : Arr1 128 := m ((c : Thread nD τ).loc main_arg3)
abbrev W₂ : Arr2 128 128 := m ((c : Thread nD τ).loc main_arg4)
abbrev b₂ : Arr1 128 := m ((c : Thread nD τ).loc main_arg5)
abbrev Wc₁ : Arr2 128 16 := m ((c : Thread nD τ).loc main_arg6)
abbrev bc₁ : Arr1 16 := m ((c : Thread nD τ).loc main_arg7)
abbrev Wc₂ : Arr2 128 16 := m ((c : Thread nD τ).loc main_arg8)
abbrev bc₂ : Arr1 16 := m ((c : Thread nD τ).loc main_arg9)

/-- What the first layer's region finds as the support: X · W₁. -/
theorem support_found : (V2 m ρ c main_v0 : Arr2 10000 128) = prod (X m c) (W₁ m c) := by
  rw [Boundaries.entry1_support m ρ c, SupportRegion.support_array (V0 m ρ) c]

/-- What the second layer's region finds as T: max(A · (X · W₁) + b₁, 0) · W₂. -/
theorem firstLayer_found :
    (V4 m ρ c main_v2 : Arr2 10000 128) = layerOne (A m c) (prod (X m c) (W₁ m c)) (b₁ m c) (W₂ m c) := by
  rw [Boundaries.entry2_t m ρ c, FirstLayerRegion.firstLayer_array (V2 m ρ) c]
  show layerOne (V2 m ρ c main_arg1 : Arr2 10000 10000) (V2 m ρ c main_v0 : Arr2 10000 128)
      (rowOf (V2 m ρ c main_v1 : Arr2 1 128)) (V2 m ρ c main_arg4 : Arr2 128 128) = _
  rw [Boundaries.entry1_adj m ρ c, support_found m ρ c, Boundaries.entry1_bias m ρ c, rowOf_cast,
    Boundaries.entry1_w2 m ρ c]

/-- The second layer's array of what its region finds is the node features of the launch arrays. -/
theorem secondLayer_found :
    SecondLayerRegion.secondLayer (V4 m ρ) c = nodeFeatures (X m c) (A m c) (W₁ m c) (b₁ m c) (W₂ m c) (b₂ m c) := by
  show layerTwo (V4 m ρ c main_arg1 : Arr2 10000 10000) (V4 m ρ c main_v2 : Arr2 10000 128)
      (rowOf (V4 m ρ c main_v10 : Arr2 1 128)) = _
  rw [Boundaries.entry2_adj m ρ c, firstLayer_found m ρ c, Boundaries.entry2_bias m ρ c, rowOf_cast]
  rfl

/-- The first result: the node features. -/
theorem features_returned :
    W6 m ρ c (Proc.devRef .tc main_v11_0) = nodeFeatures (X m c) (A m c) (W₁ m c) (b₁ m c) (W₂ m c) (b₂ m c) := by
  rw [Boundaries.exit_features m ρ c, SecondLayerRegion.features_array (V4 m ρ) c]
  exact secondLayer_found m ρ c

/-- The second result: the text head's scores. -/
theorem text_returned :
    W6 m ρ c (Proc.devRef .tc main_v12)
      = textScores (X m c) (A m c) (W₁ m c) (b₁ m c) (W₂ m c) (b₂ m c) (Wc₁ m c) (bc₁ m c) := by
  rw [Boundaries.exit_text m ρ c, SecondLayerRegion.scores_array (V4 m ρ) c]
  funext j
  obtain ⟨p, e, rfl⟩ : ∃ (p : Fin 5000) (e : Fin 16), j = ix2 p e := ⟨j 0, j 1, eq_ix2 j⟩
  have hp := p.isLt
  rw [slice2_axis0_apply 0 (SecondLayerRegion.scores (V4 m ρ) c) slices_S10000x16_S5000x16_0_0 p e
    (⟨0 + p.val, by omega⟩ : Fin 10000) rfl]
  show scoresOf (SecondLayerRegion.secondLayer (V4 m ρ) c) (V4 m ρ c main_v5 : Stack2 128 16)
      (V4 m ρ c main_v9 : Stack2 1 16) (ix2 _ e) = _
  rw [secondLayer_found m ρ c, Boundaries.entry2_heads m ρ c, Boundaries.entry2_headBias m ρ c]
  exact scoresOf_firstHalf _ _ _ (Wc₁ m c) (bc₁ m c)
    (fun k e' => (Stacked.heads_read (Wc₁ m c) (Wc₂ m c) (0 : Fin 2) k e').trans (if_pos rfl))
    (fun e' => (Stacked.headBias_read (bc₁ m c) (bc₂ m c) (0 : Fin 2) e').trans (if_pos rfl))
    p e _ rfl

/-- The third result: the image head's scores. -/
theorem image_returned :
    W6 m ρ c (Proc.devRef .tc main_v13)
      = imageScores (X m c) (A m c) (W₁ m c) (b₁ m c) (W₂ m c) (b₂ m c) (Wc₂ m c) (bc₂ m c) := by
  rw [Boundaries.exit_image m ρ c, SecondLayerRegion.scores_array (V4 m ρ) c]
  funext j
  obtain ⟨p, e, rfl⟩ : ∃ (p : Fin 5000) (e : Fin 16), j = ix2 p e := ⟨j 0, j 1, eq_ix2 j⟩
  have hp := p.isLt
  rw [slice2_axis0_apply 5000 (SecondLayerRegion.scores (V4 m ρ) c) slices_S10000x16_S5000x16_5000_0 p e
    (⟨5000 + p.val, by omega⟩ : Fin 10000) rfl]
  show scoresOf (SecondLayerRegion.secondLayer (V4 m ρ) c) (V4 m ρ c main_v5 : Stack2 128 16)
      (V4 m ρ c main_v9 : Stack2 1 16) (ix2 _ e) = _
  rw [secondLayer_found m ρ c, Boundaries.entry2_heads m ρ c, Boundaries.entry2_headBias m ρ c]
  exact scoresOf_secondHalf _ _ _ (Wc₂ m c) (bc₂ m c)
    (fun k e' => (Stacked.heads_read (Wc₁ m c) (Wc₂ m c) (1 : Fin 2) k e').trans (if_neg (by decide)))
    (fun e' => (Stacked.headBias_read (bc₁ m c) (bc₂ m c) (1 : Fin 2) e').trans (if_neg (by decide)))
    p e _ rfl

end Cert.KernelIdeal.Returned

end
-- ==== Proof.ReferenceReads.lean ====
/-
  The reference computation, read one entry at a time, is the two-layer graph convolution with its two linear heads.

  Each stage of the reference is an array, and each is shown equal, as a whole array, to the matching stage of the
  specification: X · W₁; then A · (X · W₁); the bias row b₁ added to every row; the floor at zero; the product with W₂;
  the second product with A; the bias row b₂ (the node features returned); then each half of the rows times its head's
  weights plus its head's bias row.  At every stage both sides are the same finite sum, sum of two entries or maximum of
  two entries, taken of the same entries in the same order, so once an index is split into its two coordinates the only
  thing to identify is where each operand is read.  No arithmetic of the extended reals is used anywhere.
-/
import proofs.«145531_g12206297055601_cont_week2_601_2_alg».proof.Proof.GraphConv
import proofs.«145531_g12206297055601_cont_week2_601_2_alg».proof.Proof.Gen.ReferenceIdeal.Read
import Idealize.ShloMosaic.Lib.ValueIdx

noncomputable section

open scoped BigOperators

namespace Cert.ReferenceIdeal.Spec

open Cert.GraphConv Cert.ReferenceIdeal Cert.ReferenceIdeal.Read
open Idealize.ShloMosaic Idealize.ShloMosaic.ValueIdx

/-! ## Where the operands are read

At the entry (p, u) a product reads its left operand at (p, k) and its right operand at (k, u); a bias row broadcast
to every row reads the row at u; the rows kept for a head are read at the row offset plus p. -/

theorem lidx_v0 (p : Fin 10000) (u k : Fin 128) : lidx_main_v0 (ix2 p u) k = ix2 p k :=
  funext fun a => Fin.ext (by match a with | ⟨0, _⟩ => rfl | ⟨1, _⟩ => rfl)
theorem ridx_v0 (p : Fin 10000) (u k : Fin 128) : ridx_main_v0 (ix2 p u) k = ix2 k u :=
  funext fun a => Fin.ext (by match a with | ⟨0, _⟩ => rfl | ⟨1, _⟩ => rfl)
theorem lidx_v1 (p : Fin 10000) (u : Fin 128) (k : Fin 10000) : lidx_main_v1 (ix2 p u) k = ix2 p k :=
  funext fun a => Fin.ext (by match a with | ⟨0, _⟩ => rfl | ⟨1, _⟩ => rfl)
theorem ridx_v1 (p : Fin 10000) (u : Fin 128) (k : Fin 10000) : ridx_main_v1 (ix2 p u) k = ix2 k u :=
  funext fun a => Fin.ext (by match a with | ⟨0, _⟩ => rfl | ⟨1, _⟩ => rfl)
theorem lidx_v6 (p : Fin 10000) (u k : Fin 128) : lidx_main_v6 (ix2 p u) k = ix2 p k :=
  funext fun a => Fin.ext (by match a with | ⟨0, _⟩ => rfl | ⟨1, _⟩ => rfl)
theorem ridx_v6 (p : Fin 10000) (u k : Fin 128) : ridx_main_v6 (ix2 p u) k = ix2 k u :=
  funext fun a => Fin.ext (by match a with | ⟨0, _⟩ => rfl | ⟨1, _⟩ => rfl)
theorem lidx_v7 (p : Fin 10000) (u : Fin 128) (k : Fin 10000) : lidx_main_v7 (ix2 p u) k = ix2 p k :=
  funext fun a => Fin.ext (by match a with | ⟨0, _⟩ => rfl | ⟨1, _⟩ => rfl)
theorem ridx_v7 (p : Fin 10000) (u : Fin 128) (k : Fin 10000) : ridx_main_v7 (ix2 p u) k = ix2 k u :=
  funext fun a => Fin.ext (by match a with | ⟨0, _⟩ => rfl | ⟨1, _⟩ => rfl)

/-- The first bias row, broadcast to every row, read at (p, u) is the row at u. -/
theorem v3_read (x3 : Arr1 128) (p : Fin 10000) (u : Fin 128) :
    val_main_v3 (F := Ideal) x3 (ix2 p u) = x3 (ix1 u) := by
  rw [val_main_v3_apply, val_main_v2_apply]
  exact congrArg x3 (funext fun a => Fin.ext (by match a with | ⟨0, _⟩ => rfl))

/-- The second bias row, broadcast to every row, read at (p, u) is the row at u. -/
theorem v9_read (x5 : Arr1 128) (p : Fin 10000) (u : Fin 128) :
    val_main_v9 (F := Ideal) x5 (ix2 p u) = x5 (ix1 u) := by
  rw [val_main_v9_apply, val_main_v8_apply]
  exact congrArg x5 (funext fun a => Fin.ext (by match a with | ⟨0, _⟩ => rfl))

/-- The floor's zero, broadcast to the whole array, read anywhere is the zero word's value. -/
theorem zero_read (j : S10000x128.Idx) :
    val_main_call0_v0 (F := Ideal) j = Ideal.ofBits .f32 0x00000000#32 := by
  rw [val_main_call0_v0_apply, val_main_call0_cst_apply, Ideal.ofBits_def]

/-! ## The node features, stage by stage -/

/-- X · W₁. -/
theorem v0_eq (x0 : Arr2 10000 128) (x2 : Arr2 128 128) : val_main_v0 (F := Ideal) x0 x2 = prod x0 x2 := by
  funext j
  obtain ⟨p, u, rfl⟩ : ∃ (p : Fin 10000) (u : Fin 128), j = ix2 p u := ⟨j 0, j 1, eq_ix2 j⟩
  rw [val_main_v0_apply, prod_apply]
  exact Finset.sum_congr rfl fun k _ => by rw [lidx_v0, ridx_v0]

/-- A · (X · W₁). -/
theorem v1_eq (x0 : Arr2 10000 128) (x1 : Arr2 10000 10000) (x2 : Arr2 128 128) :
    val_main_v1 (F := Ideal) x0 x1 x2 = prod x1 (prod x0 x2) := by
  funext j
  obtain ⟨p, u, rfl⟩ : ∃ (p : Fin 10000) (u : Fin 128), j = ix2 p u := ⟨j 0, j 1, eq_ix2 j⟩
  rw [val_main_v1_apply, v0_eq, prod_apply]
  exact Finset.sum_congr rfl fun k _ => by rw [lidx_v1, ridx_v1]

/-- A · (X · W₁) + b₁. -/
theorem v4_eq (x0 : Arr2 10000 128) (x1 : Arr2 10000 10000) (x2 : Arr2 128 128) (x3 : Arr1 128) :
    val_main_v4 (F := Ideal) x0 x1 x2 x3 = addRow (prod x1 (prod x0 x2)) x3 := by
  funext j
  obtain ⟨p, u, rfl⟩ : ∃ (p : Fin 10000) (u : Fin 128), j = ix2 p u := ⟨j 0, j 1, eq_ix2 j⟩
  rw [val_main_v4_apply, v1_eq, v3_read, addRow_apply, Ideal.addf_def]

/-- max(A · (X · W₁) + b₁, 0). -/
theorem v5_eq (x0 : Arr2 10000 128) (x1 : Arr2 10000 10000) (x2 : Arr2 128 128) (x3 : Arr1 128) :
    val_main_v5 (F := Ideal) x0 x1 x2 x3 = floorZero (addRow (prod x1 (prod x0 x2)) x3) := by
  funext j
  obtain ⟨p, u, rfl⟩ : ∃ (p : Fin 10000) (u : Fin 128), j = ix2 p u := ⟨j 0, j 1, eq_ix2 j⟩
  rw [val_main_v5_apply, v4_eq, zero_read, floorZero_apply, Ideal.maximumf_def]

/-- max(A · (X · W₁) + b₁, 0) · W₂. -/
theorem v6_eq (x0 : Arr2 10000 128) (x1 : Arr2 10000 10000) (x2 : Arr2 128 128) (x3 : Arr1 128) (x4 : Arr2 128 128) :
    val_main_v6 (F := Ideal) x0 x1 x2 x3 x4 = layerOne x1 (prod x0 x2) x3 x4 := by
  funext j
  obtain ⟨p, u, rfl⟩ : ∃ (p : Fin 10000) (u : Fin 128), j = ix2 p u := ⟨j 0, j 1, eq_ix2 j⟩
  rw [val_main_v6_apply, v5_eq]
  unfold layerOne
  rw [prod_apply]
  exact Finset.sum_congr rfl fun k _ => by rw [lidx_v6, ridx_v6]

/-- A · (max(A · (X · W₁) + b₁, 0) · W₂). -/
theorem v7_eq (x0 : Arr2 10000 128) (x1 : Arr2 10000 10000) (x2 : Arr2 128 128) (x3 : Arr1 128) (x4 : Arr2 128 128) :
    val_main_v7 (F := Ideal) x0 x1 x2 x3 x4 = prod x1 (layerOne x1 (prod x0 x2) x3 x4) := by
  funext j
  obtain ⟨p, u, rfl⟩ : ∃ (p : Fin 10000) (u : Fin 128), j = ix2 p u := ⟨j 0, j 1, eq_ix2 j⟩
  rw [val_main_v7_apply, v6_eq, prod_apply]
  exact Finset.sum_congr rfl fun k _ => by rw [lidx_v7, ridx_v7]

/-- The node features: A · (max(A · (X · W₁) + b₁, 0) · W₂) + b₂. -/
theorem features_eq (x0 : Arr2 10000 128) (x1 : Arr2 10000 10000) (x2 : Arr2 128 128) (x3 : Arr1 128)
    (x4 : Arr2 128 128) (x5 : Arr1 128) :
    val_main_v10 (F := Ideal) x0 x1 x2 x3 x4 x5 = nodeFeatures x0 x1 x2 x3 x4 x5 := by
  funext j
  obtain ⟨p, u, rfl⟩ : ∃ (p : Fin 10000) (u : Fin 128), j = ix2 p u := ⟨j 0, j 1, eq_ix2 j⟩
  rw [val_main_v10_apply, v7_eq, v9_read]
  unfold nodeFeatures layerTwo
  rw [addRow_apply, Ideal.addf_def]

/-! ## The two heads

Each head keeps 5000 rows of the node features (from row 0, from row 5000), multiplies them by its weights and adds its
bias row.  Read at (p, u): the kept rows are read at (offset + p, k), the weights at (k, u), the bias row at u. -/

theorem lidx_v12 (p : Fin 5000) (u : Fin 16) (k : Fin 128) : lidx_main_v12 (ix2 p u) k = ix2 p k :=
  funext fun a => Fin.ext (by match a with | ⟨0, _⟩ => rfl | ⟨1, _⟩ => rfl)
theorem ridx_v12 (p : Fin 5000) (u : Fin 16) (k : Fin 128) : ridx_main_v12 (ix2 p u) k = ix2 k u :=
  funext fun a => Fin.ext (by match a with | ⟨0, _⟩ => rfl | ⟨1, _⟩ => rfl)
theorem lidx_v17 (p : Fin 5000) (u : Fin 16) (k : Fin 128) : lidx_main_v17 (ix2 p u) k = ix2 p k :=
  funext fun a => Fin.ext (by match a with | ⟨0, _⟩ => rfl | ⟨1, _⟩ => rfl)
theorem ridx_v17 (p : Fin 5000) (u : Fin 16) (k : Fin 128) : ridx_main_v17 (ix2 p u) k = ix2 k u :=
  funext fun a => Fin.ext (by match a with | ⟨0, _⟩ => rfl | ⟨1, _⟩ => rfl)

/-- Row p of the first 5000 rows is row 0 + p of the whole array. -/
theorem idx_v11 (p : Fin 5000) (k : Fin 128) :
    idx_main_v11 (ix2 p k) = ix2 (⟨0 + p.val, by have := p.isLt; omega⟩ : Fin 10000) k :=
  funext fun a => Fin.ext (by match a with | ⟨0, _⟩ => exact (Nat.zero_add _).symm | ⟨1, _⟩ => rfl)

/-- Row p of the last 5000 rows is row 5000 + p of the whole array. -/
theorem idx_v16 (p : Fin 5000) (k : Fin 128) :
    idx_main_v16 (ix2 p k) = ix2 (⟨5000 + p.val, by have := p.isLt; omega⟩ : Fin 10000) k :=
  funext fun a => Fin.ext (by match a with | ⟨0, _⟩ => rfl | ⟨1, _⟩ => rfl)

/-- The first head's bias row, broadcast to every row, read at (p, u) is the row at u. -/
theorem v14_read (x7 : Arr1 16) (p : Fin 5000) (u : Fin 16) :
    val_main_v14 (F := Ideal) x7 (ix2 p u) = x7 (ix1 u) := by
  rw [val_main_v14_apply, val_main_v13_apply]
  exact congrArg x7 (funext fun a => Fin.ext (by match a with | ⟨0, _⟩ => rfl))

/-- The second head's bias row, broadcast to every row, read at (p, u) is the row at u. -/
theorem v19_read (x9 : Arr1 16) (p : Fin 5000) (u : Fin 16) :
    val_main_v19 (F := Ideal) x9 (ix2 p u) = x9 (ix1 u) := by
  rw [val_main_v19_apply, val_main_v18_apply]
  exact congrArg x9 (funext fun a => Fin.ext (by match a with | ⟨0, _⟩ => rfl))

/-- The text head's scores: the first 5000 rows of the node features times Wc₁, plus bc₁. -/
theorem text_eq (x0 : Arr2 10000 128) (x1 : Arr2 10000 10000) (x2 : Arr2 128 128) (x3 : Arr1 128)
    (x4 : Arr2 128 128) (x5 : Arr1 128) (x6 : Arr2 128 16) (x7 : Arr1 16) :
    val_main_v15 (F := Ideal) x0 x1 x2 x3 x4 x5 x6 x7 = textScores x0 x1 x2 x3 x4 x5 x6 x7 := by
  funext j
  obtain ⟨p, u, rfl⟩ : ∃ (p : Fin 5000) (u : Fin 16), j = ix2 p u := ⟨j 0, j 1, eq_ix2 j⟩
  rw [val_main_v15_apply, val_main_v12_apply, v14_read, Ideal.addf_def]
  unfold textScores
  rw [head_apply]
  refine congrArg (· + x7 (ix1 u)) (Finset.sum_congr rfl fun k _ => ?_)
  rw [lidx_v12, ridx_v12, val_main_v11_apply, features_eq, idx_v11]

/-- The image head's scores: the last 5000 rows of the node features times Wc₂, plus bc₂. -/
theorem image_eq (x0 : Arr2 10000 128) (x1 : Arr2 10000 10000) (x2 : Arr2 128 128) (x3 : Arr1 128)
    (x4 : Arr2 128 128) (x5 : Arr1 128) (x8 : Arr2 128 16) (x9 : Arr1 16) :
    val_main_v20 (F := Ideal) x0 x1 x2 x3 x4 x5 x8 x9 = imageScores x0 x1 x2 x3 x4 x5 x8 x9 := by
  funext j
  obtain ⟨p, u, rfl⟩ : ∃ (p : Fin 5000) (u : Fin 16), j = ix2 p u := ⟨j 0, j 1, eq_ix2 j⟩
  rw [val_main_v20_apply, val_main_v17_apply, v19_read, Ideal.addf_def]
  unfold imageScores
  rw [head_apply]
  refine congrArg (· + x9 (ix1 u)) (Finset.sum_congr rfl fun k _ => ?_)
  rw [lidx_v17, ridx_v17, val_main_v16_apply, features_eq, idx_v16]

end Cert.ReferenceIdeal.Spec

end
-- ==== Proof.lean ====
/-
  The certificate.  A two-layer graph convolution over a dense 10000 × 10000 adjacency with one linear head per half
  of the nodes, computed by three pipelined regions (the support X · W₁; the first layer floored at zero and multiplied
  by W₂; the second layer and the heads, the two heads held stacked and chosen by the row block), against the same
  computation written as whole-array operations.

  On the extended reals both programs apply the same operations in the same order and grouping — each product a finite
  sum over the contracted coordinate, each bias a row added to every row, the floor a maximum with the zero word's
  value — so both return, from memories agreeing on the ten argument arrays, the same three arrays: the node features
  A · (max(A · (X · W₁) + b₁, 0) · W₂) + b₂, and its first and last 5000 rows through their heads.  No law of the
  extended reals beyond 0 + x = x (a product into the zero accumulator) is used, and the precondition is not opened.
  The three frames are the generated ones (the reference's is its run with the results dropped); the idealization
  rewrote nothing, so there is nothing to preserve.
-/
import proofs.«145531_g12206297055601_cont_week2_601_2_alg».proof.Defs
import proofs.«145531_g12206297055601_cont_week2_601_2_alg».proof.Proof.Gen.Kernel
import proofs.«145531_g12206297055601_cont_week2_601_2_alg».proof.Proof.Gen.Kernel.Skeleton
import proofs.«145531_g12206297055601_cont_week2_601_2_alg».proof.Proof.Gen.Kernel.Launch
import proofs.«145531_g12206297055601_cont_week2_601_2_alg».proof.Proof.Gen.Kernel.Points
import proofs.«145531_g12206297055601_cont_week2_601_2_alg».proof.Proof.Gen.Kernel.Frame
import proofs.«145531_g12206297055601_cont_week2_601_2_alg».proof.Proof.Gen.KernelIdeal
import proofs.«145531_g12206297055601_cont_week2_601_2_alg».proof.Proof.Gen.KernelIdeal.Skeleton
import proofs.«145531_g12206297055601_cont_week2_601_2_alg».proof.Proof.Gen.KernelIdeal.Launch
import proofs.«145531_g12206297055601_cont_week2_601_2_alg».proof.Proof.Gen.KernelIdeal.Points
import proofs.«145531_g12206297055601_cont_week2_601_2_alg».proof.Proof.Gen.KernelIdeal.Frame
import proofs.«145531_g12206297055601_cont_week2_601_2_alg».proof.Proof.Gen.ReferenceIdeal
import proofs.«145531_g12206297055601_cont_week2_601_2_alg».proof.Proof.Gen.ReferenceIdeal.Run
import proofs.«145531_g12206297055601_cont_week2_601_2_alg».proof.Proof.Gen.ReferenceIdeal.Read
import proofs.«145531_g12206297055601_cont_week2_601_2_alg».proof.Proof.Gen.Pre_finite_inputs
import proofs.«145531_g12206297055601_cont_week2_601_2_alg».proof.Proof.KernelRun
import proofs.«145531_g12206297055601_cont_week2_601_2_alg».proof.Proof.ReturnedValues
import proofs.«145531_g12206297055601_cont_week2_601_2_alg».proof.Proof.ReferenceReads
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with the node features and the two heads' scores of the argument arrays. -/
theorem algebraic : Cert.algebraic_KernelIdeal_ReferenceIdeal := by
  intro m ρ m' ρ' _ hagree
  refine ⟨fun c => Cert.GraphConv.nodeFeatures (Cert.KernelIdeal.Returned.X m c) (Cert.KernelIdeal.Returned.A m c)
        (Cert.KernelIdeal.Returned.W₁ m c) (Cert.KernelIdeal.Returned.b₁ m c) (Cert.KernelIdeal.Returned.W₂ m c)
        (Cert.KernelIdeal.Returned.b₂ m c),
      fun c => Cert.GraphConv.textScores (Cert.KernelIdeal.Returned.X m c) (Cert.KernelIdeal.Returned.A m c)
        (Cert.KernelIdeal.Returned.W₁ m c) (Cert.KernelIdeal.Returned.b₁ m c) (Cert.KernelIdeal.Returned.W₂ m c)
        (Cert.KernelIdeal.Returned.b₂ m c) (Cert.KernelIdeal.Returned.Wc₁ m c) (Cert.KernelIdeal.Returned.bc₁ m c),
      fun c => Cert.GraphConv.imageScores (Cert.KernelIdeal.Returned.X m c) (Cert.KernelIdeal.Returned.A m c)
        (Cert.KernelIdeal.Returned.W₁ m c) (Cert.KernelIdeal.Returned.b₁ m c) (Cert.KernelIdeal.Returned.W₂ m c)
        (Cert.KernelIdeal.Returned.b₂ m c) (Cert.KernelIdeal.Returned.Wc₂ m c) (Cert.KernelIdeal.Returned.bc₂ m c),
      ?_, ?_⟩
  · refine (θ_run Cert.KernelIdeal.defs _ _).mono (fun r h c => ?_) (Cert.KernelIdeal.Whole.run_results (F := Ideal) m ρ)
    obtain ⟨h0, h1, h2, hargs⟩ := h c
    exact ⟨h0.trans (Cert.KernelIdeal.Returned.features_returned m ρ c),
      h1.trans (Cert.KernelIdeal.Returned.text_returned m ρ c),
      h2.trans (Cert.KernelIdeal.Returned.image_returned m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9⟩ := hagree c
    refine ⟨h0.trans ?_, h1.trans ?_, h2.trans ?_, hargs⟩
    · rw [Cert.ReferenceIdeal.Read.val_main_v10_eq, Cert.ReferenceIdeal.Spec.features_eq, a0, a1, a2, a3, a4, a5]
    · rw [Cert.ReferenceIdeal.Read.val_main_v15_eq, Cert.ReferenceIdeal.Spec.text_eq, a0, a1, a2, a3, a4, a5, a6, a7]
    · rw [Cert.ReferenceIdeal.Read.val_main_v20_eq, Cert.ReferenceIdeal.Spec.image_eq, a0, a1, a2, a3, a4, a5, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
